-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S128 .f32) (main_arg16 : FVec F S128x1 .f32) (main_arg17 : FVec F S1 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x1 .f32 := Host.absf main_arg16
  let main_cst_28 : FVec F S_ .f32 := constant S_ .f32 0x7F800000#32
  let main_v75 : FVec F S128x1 .f32 := broadcastInDim S128x1 ![] bcast_S_S128x1 main_cst_28
  let main_v76 : IVec S128x1 1 := cmpf .olt main_v74 main_v75
  let main_c_29 : IVec S_ 1 := constantI S_ 1 1#1
  let main_v77 : IVec S_ 1 := (fun x v => Host.reduce IntOp.andi x v reducesTo_S128x1_S_d0_1 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg12 : FVec F S128 .f32) (main_arg13 : FVec F S128 .f32) (main_arg14 : FVec F S128x128 .f32) (main_arg15 : FVec F S128 .f32) (main_arg16 : FVec F S128x1 .f32) (main_arg17 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_v63 main_v67

def fn_part2 {F : FTy → Type} [FloatOps F] (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x128 .f32) (main_arg15 : FVec F S128 .f32) (main_arg16 : FVec F S128x1 .f32) (main_arg17 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_v48 main_v49 main_v50

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x128 .f32) (main_arg15 : FVec F S128 .f32) (main_arg16 : FVec F S128x1 .f32) (main_arg17 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x128 .f32) (main_arg15 : FVec F S128 .f32) (main_arg16 : FVec F S128x1 .f32) (main_arg17 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S2000x128 : Shape := ⟨2, ![2000, 128]⟩
abbrev S1700000x128 : Shape := ⟨2, ![1700000, 128]⟩
abbrev S1x128 : Shape := ⟨2, ![1, 128]⟩
abbrev S1x1 : Shape := ⟨2, ![1, 1]⟩
abbrev S100000x1 : Shape := ⟨2, ![100000, 1]⟩
abbrev S2000x1 : Shape := ⟨2, ![2000, 1]⟩

abbrev nBuf : Space → Nat
  | .hbm => 102
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x1, .f32⟩
  | .hbm, ⟨17, _⟩ => ⟨S1, .f32⟩
  | .hbm, ⟨18, _⟩ => ⟨S100000, .i32⟩
  | .hbm, ⟨19, _⟩ => ⟨S1x1600000, .i32⟩
  | .hbm, ⟨20, _⟩ => ⟨S1600000, .i32⟩
  | .hbm, ⟨21, _⟩ => ⟨S1700000, .i32⟩
  | .hbm, ⟨22, _⟩ => ⟨S1x1600000, .i32⟩
  | .hbm, ⟨23, _⟩ => ⟨S1600000, .i32⟩
  | .hbm, ⟨24, _⟩ => ⟨S1700000, .i32⟩
  | .hbm, ⟨25, _⟩ => ⟨S_, .f32⟩
  | .hbm, ⟨26, _⟩ => ⟨S1700000, .f32⟩
  | .hbm, ⟨27, _⟩ => ⟨S_, .f32⟩
  | .hbm, ⟨28, _⟩ => ⟨S100000, .f32⟩
  | .hbm, ⟨29, _⟩ => ⟨S1700000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000, .f32⟩
  | .hbm, ⟨53, _⟩ => ⟨S1700000, .f32⟩
  | .hbm, ⟨54, _⟩ => ⟨S1700000x1, .f32⟩
  | .hbm, ⟨55, _⟩ => ⟨S100000x128, .f32⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x128, .f32⟩
  | .hbm, ⟨65, _⟩ => ⟨S1700000x128, .f32⟩
  | .hbm, ⟨66, _⟩ => ⟨S1700000x128, .f32⟩
  | .hbm, ⟨67, _⟩ => ⟨S_, .f32⟩
  | .hbm, ⟨68, _⟩ => ⟨S100000x128, .f32⟩
  | .hbm, ⟨69, _⟩ => ⟨S1700000x1, .i32⟩
  | .hbm, ⟨70, _⟩ => ⟨S100000x128, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S_, .i32⟩
  | .hbm, ⟨79, _⟩ => ⟨S1700000, .i32⟩
  | .hbm, ⟨80, _⟩ => ⟨S1700000, .i1⟩
  | .hbm, ⟨81, _⟩ => ⟨S_, .i32⟩
  | .hbm, ⟨82, _⟩ => ⟨S1700000, .i32⟩
  | .hbm, ⟨83, _⟩ => ⟨S1700000, .i32⟩
  | .hbm, ⟨84, _⟩ => ⟨S1700000, .i32⟩
  | .hbm, ⟨85, _⟩ => ⟨S1700000x1, .i32⟩
  | .hbm, ⟨86, _⟩ => ⟨S1700000x128, .f32⟩
  | .hbm, ⟨87, _⟩ => ⟨S1700000x128, .f32⟩
  | .hbm, ⟨88, _⟩ => ⟨S1700000x128, .f32⟩
  | .hbm, ⟨89, _⟩ => ⟨S_, .f32⟩
  | .hbm, ⟨90, _⟩ => ⟨S100000x128, .f32⟩
  | .hbm, ⟨91, _⟩ => ⟨S1700000x1, .i32⟩
  | .hbm, ⟨92, _⟩ => ⟨S100000x128, .f32⟩
  | .hbm, ⟨93, _⟩ => ⟨S1x128, .f32⟩
  | .hbm, ⟨94, _⟩ => ⟨S1x128, .f32⟩
  | .hbm, ⟨95, _⟩ => ⟨S1x128, .f32⟩
  | .hbm, ⟨96, _⟩ => ⟨S1x128, .f32⟩
  | .hbm, ⟨97, _⟩ => ⟨S1x128, .f32⟩
  | .hbm, ⟨98, _⟩ => ⟨S100000x128, .f32⟩
  | .hbm, ⟨99, _⟩ => ⟨S1x128, .f32⟩
  | .hbm, ⟨100, _⟩ => ⟨S1x1, .f32⟩
  | .hbm, ⟨101, _⟩ => ⟨S100000x1, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x128, .f32⟩
  | .local _ .vmem, ⟨31, _⟩ => ⟨S1x128, .f32⟩
  | .local _ .vmem, ⟨32, _⟩ => ⟨S128x1, .f32⟩
  | .local _ .vmem, ⟨33, _⟩ => ⟨S1x1, .f32⟩
  | .local _ .vmem, ⟨34, _⟩ => ⟨S2000x1, .f32⟩
  | .local _ .vmem, ⟨35, _⟩ => ⟨S2000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_3 : Ref sig .tc := ⟨.hbm, 44, rfl⟩
abbrev main_v21 : Ref sig .tc := ⟨.hbm, 45, rfl⟩
abbrev main_v22 : Ref sig .tc := ⟨.hbm, 46, rfl⟩
abbrev main_c_4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_5 : Ref sig .tc := ⟨.hbm, 56, rfl⟩
abbrev main_v31 : Ref sig .tc := ⟨.hbm, 57, rfl⟩
abbrev main_v32 : Ref sig .tc := ⟨.hbm, 58, rfl⟩
abbrev main_c_6 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c_8 : Ref sig .tc := ⟨.hbm, 78, rfl⟩
abbrev main_v50 : Ref sig .tc := ⟨.hbm, 79, rfl⟩
abbrev main_v51 : Ref sig .tc := ⟨.hbm, 80, rfl⟩
abbrev main_c_9 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_10 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg5_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem4_0 : DmaSem sig := 33
abbrev cc4_sem5_0 : DmaSem sig := 34
abbrev cc4_sem5_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x128_S2000x128_1_0_0_1_n_n_wf : DotDims.WF S2000x128 S128x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S100000x128.size a
  hwx3_6 : ∀ i : grid3.Coords, EltTy.bits .f32 = 32 ∨ (Rect.block (s := S100000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x1.size a ≤ S128x1.size a
  hwx4_3 : ∀ i : grid4.Coords, EltTy.bits .f32 = 32 ∨ (Rect.block (s := S128x1) S128x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x1.size a ≤ S100000x1.size a
  hwx4_5 : ∀ i : grid4.Coords, EltTy.bits .f32 = 32 ∨ (Rect.block (s := S100000x1) S2000x1.size (cc4_transform_5 i) (hinb4_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v48) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v48) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v66) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v67) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v67) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg14) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v68) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg16) S128x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v69) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v70) S2000x1.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 142
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S128, .f32⟩
  | 13 => ⟨S128, .f32⟩
  | 14 => ⟨S128x128, .f32⟩
  | 15 => ⟨S128, .f32⟩
  | 16 => ⟨S128x1, .f32⟩
  | 17 => ⟨S1, .f32⟩
  | 18 => ⟨S100000, .i32⟩
  | 19 => ⟨S1x1600000, .i32⟩
  | 20 => ⟨S1600000, .i32⟩
  | 21 => ⟨S1700000, .i32⟩
  | 22 => ⟨S1x1600000, .i32⟩
  | 23 => ⟨S1600000, .i32⟩
  | 24 => ⟨S1700000, .i32⟩
  | 25 => ⟨S_, .f32⟩
  | 26 => ⟨S1700000, .f32⟩
  | 27 => ⟨S_, .f32⟩
  | 28 => ⟨S100000, .f32⟩
  | 29 => ⟨S1700000x1, .i32⟩
  | 30 => ⟨S100000, .f32⟩
  | 31 => ⟨S_, .f32⟩
  | 32 => ⟨S100000, .f32⟩
  | 33 => ⟨S100000, .f32⟩
  | 34 => ⟨S100000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S1700000x1, .f32⟩
  | 55 => ⟨S100000x128, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x128, .f32⟩
  | 65 => ⟨S1700000x128, .f32⟩
  | 66 => ⟨S1700000x128, .f32⟩
  | 67 => ⟨S_, .f32⟩
  | 68 => ⟨S100000x128, .f32⟩
  | 69 => ⟨S1700000x1, .i32⟩
  | 70 => ⟨S100000x128, .f32⟩
  | 71 => ⟨S1x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S128, .f32⟩
  | 82 => ⟨S128, .f32⟩
  | 83 => ⟨S128, .f32⟩
  | 84 => ⟨S1x128, .f32⟩
  | 85 => ⟨S100000x128, .f32⟩
  | 86 => ⟨S100000x128, .f32⟩
  | 87 => ⟨S1x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S100000x128, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000x128, .f32⟩
  | 103 => ⟨S1700000x128, .f32⟩
  | 104 => ⟨S1700000x128, .f32⟩
  | 105 => ⟨S_, .f32⟩
  | 106 => ⟨S100000x128, .f32⟩
  | 107 => ⟨S1700000x1, .i32⟩
  | 108 => ⟨S100000x128, .f32⟩
  | 109 => ⟨S1x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S1x128, .f32⟩
  | 116 => ⟨S100000x128, .f32⟩
  | 117 => ⟨S100000x128, .f32⟩
  | 118 => ⟨S_, .f32⟩
  | 119 => ⟨S128, .f32⟩
  | 120 => ⟨S128, .f32⟩
  | 121 => ⟨S128, .f32⟩
  | 122 => ⟨S1x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x128, .f32⟩

abbrev hbmTy0_1 (i : Nat) : BufTy := match i % 128 with
  | 0 => ⟨S_, .f32⟩
  | 1 => ⟨S100000x128, .f32⟩
  | 2 => ⟨S100000x128, .f32⟩
  | 3 => ⟨S100000x128, .f32⟩
  | 4 => ⟨S1x128, .f32⟩
  | 5 => ⟨S100000x128, .f32⟩
  | 6 => ⟨S100000x128, .f32⟩
  | 7 => ⟨S_, .f32⟩
  | 8 => ⟨S100000x128, .f32⟩
  | 9 => ⟨S100000x128, .f32⟩
  | 10 => ⟨S100000x1, .f32⟩
  | 11 => ⟨S1x1, .f32⟩
  | 12 => ⟨S100000x1, .f32⟩
  | 13 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_3 : Ref sig .tc := ⟨.hbm, 44, rfl⟩
abbrev main_v21 : Ref sig .tc := ⟨.hbm, 45, rfl⟩
abbrev main_v22 : Ref sig .tc := ⟨.hbm, 46, rfl⟩
abbrev main_c_4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_5 : Ref sig .tc := ⟨.hbm, 56, rfl⟩
abbrev main_v31 : Ref sig .tc := ⟨.hbm, 57, rfl⟩
abbrev main_v32 : Ref sig .tc := ⟨.hbm, 58, rfl⟩
abbrev main_c_6 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_call0_cst : Ref sig .tc := ⟨.hbm, 90, rfl⟩
abbrev main_call0_v0 : Ref sig .tc := ⟨.hbm, 91, rfl⟩
abbrev main_v61 : Ref sig .tc := ⟨.hbm, 92, rfl⟩
abbrev main_v62 : Ref sig .tc := ⟨.hbm, 93, rfl⟩
abbrev main_c_9 : Ref sig .tc := ⟨.hbm, 94, rfl⟩
abbrev main_v63 : Ref sig .tc := ⟨.hbm, 95, rfl⟩
abbrev main_v64 : Ref sig .tc := ⟨.hbm, 96, rfl⟩
abbrev main_c_10 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_11 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_12 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_call1_cst : Ref sig .tc := ⟨.hbm, 128, rfl⟩
abbrev main_call1_v0 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_call2_cst : Ref sig .tc := ⟨.hbm, 135, rfl⟩
abbrev main_call2_v0 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x1_S100000x1_1_0_0_1_n_n_wf : DotDims.WF S100000x128 S128x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KRun.lean ====
/-
  The idealized kernel program's run with its RESULT named: every weakly fair execution terminates, nothing faults, the
  result buffer ends at what the last region's write-backs leave there (the last boundary's contents, `Gen.W9`, read at
  the result buffer) and the eighteen argument arrays end as launched.  It is the same launch over the same nine
  segments as the frame claim; only the final read-back keeps one more buffer.
-/
import proofs.«114808_j31499290149338_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's contents and the arguments unchanged. -/
theorem run : θ_run defs (onTc (τ := τ) (main (F := F))) ⟨m, fun _ => 0, ρ⟩ (fun r => ∀ c : Dev nD,
      r.2.mem ((c.tc : Thread nD τ).loc main_v70) = W9 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v70 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c),
       (h c _ (mem_uc main_arg17 (by decide))).trans (W9_main_arg17 m ρ c)⟩)

end Cert.KernelIdeal.Named

end
-- ==== Proof.Spec.lean ====
/-
  What one graph-convolution network computes, stage by stage, as functions of whole arrays read index by index
  on the extended reals.  Three stages occur:

  * `lin x w`      — a dense layer: entry (r, j) is the sum over k of x (r, k) * w (k, j);
  * `bn z b g be mu v` — bias, normalisation by fixed statistics and the positive part:
                        entry (r, j) is max (g j * ((z (r, j) + b j) - mu j) * rsqrt (v j + eps) + be j) 0,
                        the five parameter vectors given as one-row matrices;
  * `head h w1 c1 w2 c2` — two dense layers with a positive part between them, the second with one output column:
                        entry (r, 0) is (sum over k of max ((sum over l of h (r, l) * w1 (l, k)) + c1 k) 0 * w2 (k, 0)) + c2.

  The two float constants (the zero of the positive part, the small number under the square root) are kept as their
  binary words: both programs carry the same words, so they are never evaluated.
-/
import proofs.«114808_j31499290149338_1_alg».proof.KernelIdeal
import Idealize.ShloMosaic.PureOps.Ideal
import Idealize.ShloMosaic.Lib.ValueIdx

noncomputable section

namespace Cert.Gcn

open Idealize.ShloMosaic Idealize.ShloMosaic.ValueIdx Cert.KernelIdeal

/-- The small constant added under the square root, as its binary word. -/
abbrev eps : EReal := Ideal.ofBits .f32 0x3727C5AC#32
/-- The zero the positive part compares with, as its binary word. -/
abbrev zero : EReal := Ideal.ofBits .f32 0x00000000#32

/-- A dense layer: row `r` of `x` against column `j` of `w`. -/
def lin (x : FVec Ideal S100000x128 .f32) (w : FVec Ideal S128x128 .f32) : FVec Ideal S100000x128 .f32 :=
  fun i => ∑ k : Fin 128, x (ix2 (i 0) k) * w (ix2 k (i 1))

/-- Bias, normalisation by fixed statistics, positive part; the parameters are one-row matrices read at column `j`. -/
def bn (z : FVec Ideal S100000x128 .f32) (b g be mu v : FVec Ideal S1x128 .f32) : FVec Ideal S100000x128 .f32 :=
  fun i => max (g (ix2 0 (i 1)) * (z i + b (ix2 0 (i 1)) - mu (ix2 0 (i 1))) * Ideal.rsqrt (v (ix2 0 (i 1)) + eps)
      + be (ix2 0 (i 1))) zero

/-- Two dense layers with a positive part between them; the second has one output column. -/
def head (h : FVec Ideal S100000x128 .f32) (w1 : FVec Ideal S128x128 .f32) (c1 : FVec Ideal S1x128 .f32)
    (w2 : FVec Ideal S128x1 .f32) (c2 : FVec Ideal S1x1 .f32) : FVec Ideal S100000x1 .f32 :=
  fun i => (∑ k : Fin 128, max ((∑ l : Fin 128, h (ix2 (i 0) l) * w1 (ix2 l k)) + c1 (ix2 0 k)) zero * w2 (ix2 k 0))
      + c2 (ix2 0 0)

end Cert.Gcn

end
-- ==== Proof.Agg.lean ====
/-
  The host side that the kernel program and the reference share, as functions of the edge array `e` (two rows of
  1600000 node numbers: sources, destinations).

  * `src e`, `dst e` — the edge lists with one self loop per node appended: row 0, resp. row 1, of `e` followed by
    0, 1, …, 99999;
  * `wrap s` — a node number read as an index: a negative number counts from the end (100000 is added);
  * `dinv e` — per node, the inverse square root of max (in-degree, 1), the in-degree counted by a scatter-add of ones
    along `dst e`;
  * `norm e` — per edge, dinv at its source times dinv at its destination, as a one-column matrix;
  * `aggr s d w hw` — one aggregation: gather the rows of `hw` at the sources, scale row by row with the edge weights `w`,
    scatter-add the rows at the destinations into zeros;
  * `layer`, `net` — a dense layer, an aggregation and a normalisation; two layers and the classifier head.

  These are the operations exactly as both programs spell them, so that each program's host stretches are these
  functions by unfolding; nothing is computed here.
-/
import proofs.«114808_j31499290149338_1_alg».proof.Proof.Spec
import proofs.«114808_j31499290149338_1_alg».proof.Proof.Gen.KernelIdeal

set_option maxRecDepth 16384

noncomputable section

namespace Cert.Gcn

open Idealize.ShloMosaic Cert.KernelIdeal Cert.KernelIdeal.Facts₀ Cert.KernelIdeal.Facts

/-- The type of the edge array and of an edge list. -/
abbrev Edges := (⟨S2x1600000, .i32⟩ : BufTy).Contents (Elt Ideal)
abbrev EdgeList := (⟨S1700000, .i32⟩ : BufTy).Contents (Elt Ideal)

/-- Sources: row 0 of the edge array, then one self loop per node. -/
def src (e : Edges) : EdgeList :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- Destinations: row 1 of the edge array, then one self loop per node. -/
def dst (e : Edges) : EdgeList :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A node number as an index into 100000 rows: negative numbers count from the end. As a column of indices. -/
def wrap (s : EdgeList) : (⟨S1700000x1, .i32⟩ : BufTy).Contents (Elt Ideal) :=
  broadcastInDim S1700000x1 ![0] bcast_S1700000_S1700000x1_0 (select (cmpi .slt s (broadcastInDim S1700000 ![] bcast_S_S1700000 (constantI S_ 32 0#32))) (addi s (broadcastInDim S1700000 ![] bcast_S_S1700000 (constantI S_ 32 100000#32))) s)

/-- Per node: rsqrt (max (in-degree, 1)). -/
def dinv (e : Edges) : FVec Ideal S100000 .f32 :=
  Host.rsqrt (maximumf (Host.scatterAdd scatter_S100000_S1700000x1_S1700000_n_0_0_1 (broadcastInDim S100000 ![] bcast_S_S100000 (constant S_ .f32 0x00000000#32)) (broadcastInDim S1700000x1 ![0] bcast_S1700000_S1700000x1_0 (dst e)) (broadcastInDim S1700000 ![] bcast_S_S1700000 (constant S_ .f32 0x3F800000#32))) (broadcastInDim S100000 ![] bcast_S_S100000 (constant S_ .f32 0x3F800000#32)))

/-- Per edge: dinv at the source times dinv at the destination, as a column. -/
def norm (e : Edges) : FVec Ideal S1700000x1 .f32 :=
  broadcastInDim S1700000x1 ![0] bcast_S1700000_S1700000x1_0 (mulf (Host.gather gather_S100000_S1700000x1_S1700000_n_0_n_n_0_1_1 (dinv e) (wrap (src e))) (Host.gather gather_S100000_S1700000x1_S1700000_n_0_n_n_0_1_1 (dinv e) (wrap (dst e))))

/-- One aggregation over the edges. -/
def aggr (s d : EdgeList) (w : FVec Ideal S1700000x1 .f32) (hw : FVec Ideal S100000x128 .f32) : FVec Ideal S100000x128 .f32 :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 d) (mulf (Host.gather gather_S100000x128_S1700000x1_S1700000x128_1_0_n_n_0_1_1128 hw (wrap s)) (broadcastInDim S1700000x128 ![0, 1] bcast_S1700000x1_S1700000x128_0_1 w))

/-- One layer: dense, aggregate, normalise. -/
def layer (e : Edges) (x : FVec Ideal S100000x128 .f32) (w : FVec Ideal S128x128 .f32) (b g be mu v : FVec Ideal S1x128 .f32) :
    FVec Ideal S100000x128 .f32 :=
  bn (aggr (src e) (dst e) (norm e) (lin x w)) b g be mu v

/-- The whole network: two layers and the head. The parameter vectors are one-row matrices, the last bias one by one. -/
def net (e : Edges) (x : FVec Ideal S100000x128 .f32)
    (w1 : FVec Ideal S128x128 .f32) (b1 g1 be1 mu1 v1 : FVec Ideal S1x128 .f32)
    (w2 : FVec Ideal S128x128 .f32) (b2 g2 be2 mu2 v2 : FVec Ideal S1x128 .f32)
    (cw1 : FVec Ideal S128x128 .f32) (c1 : FVec Ideal S1x128 .f32) (cw2 : FVec Ideal S128x1 .f32) (c2 : FVec Ideal S1x1 .f32) :
    FVec Ideal S100000x1 .f32 :=
  head (layer e (layer e x w1 b1 g1 be1 mu1 v1) w2 b2 g2 be2 mu2 v2) cw1 c1 cw2 c2

end Cert.Gcn

end
-- ==== Proof.KWalk.lean ====
/-
  The idealized kernel program read boundary by boundary.  Its @main is nine segments — host stretch, dense layer,
  host stretch, normalisation, dense layer, host stretch, normalisation, host stretch, head — and the generated frame
  names the TensorCore's buffer contents at every boundary (`Gen.W1` … `Gen.W9`): a host stretch folds its operations
  over the previous contents, a region replaces its output array by what its write-backs leave and keeps every other
  buffer.  Given, for each region, its output array as one whole-array function of the region-entry contents (the
  five hypotheses `Lin0` … `Head4`), each boundary's interesting buffers are read here in turn, from the launch memory
  forward: the argument arrays stay as launched (nothing writes them), the first stretch leaves the edge lists and
  the edge weights, and each later buffer is the next stage of the network applied to the previous one.  At the last
  boundary the result buffer is `Gcn.net` of the arguments.
-/
import proofs.«114808_j31499290149338_1_alg».proof.Proof.Gen.KernelIdeal.Frame
import proofs.«114808_j31499290149338_1_alg».proof.Proof.Agg
import Idealize.ShloMosaic.Lib.StableHlo.Run
import Idealize.ShloMosaic.PureOps.Ideal

set_option maxRecDepth 16384

noncomputable section

namespace Cert.KernelIdeal.Walk

open Cert.KernelIdeal Cert.KernelIdeal.Gen
open Idealize.ShloMosaic Idealize.ShloMosaic.TcCoe Idealize.ShloMosaic.Tactic
open Idealize.SL Idealize.SL.Sem
open Idealize.ShloMosaic.StableHlo

/-- Region-entry contents: what every buffer of a core holds when a region is entered. -/
abbrev Entry := (c : Dev nD) → (b : Ref sig .tc) → Buf (Elt Ideal) ((c : Thread nD τ).loc b)

/-- Each region's output array, after its run, as one function of the region-entry contents. -/
def Lin0 : Prop := ∀ (V : Entry) (c : Dev nD), (dat0 (F := Ideal) V c).arrAt 2 cfg0.N = Gcn.lin (V c main_arg0) (V c main_arg2)
def Bn1 : Prop := ∀ (V : Entry) (c : Dev nD), (dat1 (F := Ideal) V c).arrAt 6 cfg1.N = Gcn.bn (V c main_v42) (V c main_v43) (V c main_v44) (V c main_v45) (V c main_v46) (V c main_v47)
def Lin2 : Prop := ∀ (V : Entry) (c : Dev nD), (dat2 (F := Ideal) V c).arrAt 2 cfg2.N = Gcn.lin (V c main_v48) (V c main_arg8)
def Bn3 : Prop := ∀ (V : Entry) (c : Dev nD), (dat3 (F := Ideal) V c).arrAt 6 cfg3.N = Gcn.bn (V c main_v61) (V c main_v62) (V c main_v63) (V c main_v64) (V c main_v65) (V c main_v66)
def Head4 : Prop := ∀ (V : Entry) (c : Dev nD), (dat4 (F := Ideal) V c).arrAt 5 cfg4.N = Gcn.head (V c main_v67) (V c main_arg14) (V c main_v68) (V c main_arg16) (V c main_v69)

variable (m : (ℓ : Loc nD τ sig) → Buf (Elt Ideal) ℓ) (ρ : Dev nD → PrngReg) (c : Dev nD)

/-! ## After the first host stretch: the edge lists, the edge weights, and every argument still as launched -/
theorem w1_arg0 : W1 (F := Ideal) m ρ c (Proc.devRef .tc main_arg0) = (m ((c : Thread nD τ).loc main_arg0)) := by
  show StableHlo.after hostOps0 (W0 m ρ c) (Proc.devRef .tc main_arg0) = _
  after_results_simp <;> rfl
theorem w1_arg2 : W1 (F := Ideal) m ρ c (Proc.devRef .tc main_arg2) = (m ((c : Thread nD τ).loc main_arg2)) := by
  show StableHlo.after hostOps0 (W0 m ρ c) (Proc.devRef .tc main_arg2) = _
  after_results_simp <;> rfl
theorem w1_arg3 : W1 (F := Ideal) m ρ c (Proc.devRef .tc main_arg3) = (m ((c : Thread nD τ).loc main_arg3)) := by
  show StableHlo.after hostOps0 (W0 m ρ c) (Proc.devRef .tc main_arg3) = _
  after_results_simp <;> rfl
theorem w1_arg4 : W1 (F := Ideal) m ρ c (Proc.devRef .tc main_arg4) = (m ((c : Thread nD τ).loc main_arg4)) := by
  show StableHlo.after hostOps0 (W0 m ρ c) (Proc.devRef .tc main_arg4) = _
  after_results_simp <;> rfl
theorem w1_arg5 : W1 (F := Ideal) m ρ c (Proc.devRef .tc main_arg5) = (m ((c : Thread nD τ).loc main_arg5)) := by
  show StableHlo.after hostOps0 (W0 m ρ c) (Proc.devRef .tc main_arg5) = _
  after_results_simp <;> rfl
theorem w1_arg6 : W1 (F := Ideal) m ρ c (Proc.devRef .tc main_arg6) = (m ((c : Thread nD τ).loc main_arg6)) := by
  show StableHlo.after hostOps0 (W0 m ρ c) (Proc.devRef .tc main_arg6) = _
  after_results_simp <;> rfl
theorem w1_arg7 : W1 (F := Ideal) m ρ c (Proc.devRef .tc main_arg7) = (m ((c : Thread nD τ).loc main_arg7)) := by
  show StableHlo.after hostOps0 (W0 m ρ c) (Proc.devRef .tc main_arg7) = _
  after_results_simp <;> rfl
theorem w1_arg8 : W1 (F := Ideal) m ρ c (Proc.devRef .tc main_arg8) = (m ((c : Thread nD τ).loc main_arg8)) := by
  show StableHlo.after hostOps0 (W0 m ρ c) (Proc.devRef .tc main_arg8) = _
  after_results_simp <;> rfl
theorem w1_arg9 : W1 (F := Ideal) m ρ c (Proc.devRef .tc main_arg9) = (m ((c : Thread nD τ).loc main_arg9)) := by
  show StableHlo.after hostOps0 (W0 m ρ c) (Proc.devRef .tc main_arg9) = _
  after_results_simp <;> rfl
theorem w1_arg10 : W1 (F := Ideal) m ρ c (Proc.devRef .tc main_arg10) = (m ((c : Thread nD τ).loc main_arg10)) := by
  show StableHlo.after hostOps0 (W0 m ρ c) (Proc.devRef .tc main_arg10) = _
  after_results_simp <;> rfl
theorem w1_arg11 : W1 (F := Ideal) m ρ c (Proc.devRef .tc main_arg11) = (m ((c : Thread nD τ).loc main_arg11)) := by
  show StableHlo.after hostOps0 (W0 m ρ c) (Proc.devRef .tc main_arg11) = _
  after_results_simp <;> rfl
theorem w1_arg12 : W1 (F := Ideal) m ρ c (Proc.devRef .tc main_arg12) = (m ((c : Thread nD τ).loc main_arg12)) := by
  show StableHlo.after hostOps0 (W0 m ρ c) (Proc.devRef .tc main_arg12) = _
  after_results_simp <;> rfl
theorem w1_arg13 : W1 (F := Ideal) m ρ c (Proc.devRef .tc main_arg13) = (m ((c : Thread nD τ).loc main_arg13)) := by
  show StableHlo.after hostOps0 (W0 m ρ c) (Proc.devRef .tc main_arg13) = _
  after_results_simp <;> rfl
theorem w1_arg14 : W1 (F := Ideal) m ρ c (Proc.devRef .tc main_arg14) = (m ((c : Thread nD τ).loc main_arg14)) := by
  show StableHlo.after hostOps0 (W0 m ρ c) (Proc.devRef .tc main_arg14) = _
  after_results_simp <;> rfl
theorem w1_arg15 : W1 (F := Ideal) m ρ c (Proc.devRef .tc main_arg15) = (m ((c : Thread nD τ).loc main_arg15)) := by
  show StableHlo.after hostOps0 (W0 m ρ c) (Proc.devRef .tc main_arg15) = _
  after_results_simp <;> rfl
theorem w1_arg16 : W1 (F := Ideal) m ρ c (Proc.devRef .tc main_arg16) = (m ((c : Thread nD τ).loc main_arg16)) := by
  show StableHlo.after hostOps0 (W0 m ρ c) (Proc.devRef .tc main_arg16) = _
  after_results_simp <;> rfl
theorem w1_arg17 : W1 (F := Ideal) m ρ c (Proc.devRef .tc main_arg17) = (m ((c : Thread nD τ).loc main_arg17)) := by
  show StableHlo.after hostOps0 (W0 m ρ c) (Proc.devRef .tc main_arg17) = _
  after_results_simp <;> rfl
theorem w1_v3 : W1 (F := Ideal) m ρ c (Proc.devRef .tc main_v3) = Gcn.src (m ((c : Thread nD τ).loc main_arg1)) := by
  show StableHlo.after hostOps0 (W0 m ρ c) (Proc.devRef .tc main_v3) = _
  after_results_simp <;> rfl
theorem w1_v6 : W1 (F := Ideal) m ρ c (Proc.devRef .tc main_v6) = Gcn.dst (m ((c : Thread nD τ).loc main_arg1)) := by
  show StableHlo.after hostOps0 (W0 m ρ c) (Proc.devRef .tc main_v6) = _
  after_results_simp <;> rfl
theorem w1_v29 : W1 (F := Ideal) m ρ c (Proc.devRef .tc main_v29) = Gcn.norm (m ((c : Thread nD τ).loc main_arg1)) := by
  show StableHlo.after hostOps0 (W0 m ρ c) (Proc.devRef .tc main_v29) = _
  after_results_simp <;> rfl

/-! ## After the first dense layer -/
theorem w2_v30 (h0 : Lin0) : W2 (F := Ideal) m ρ c (Proc.devRef .tc main_v30) = (Gcn.lin (m ((c : Thread nD τ).loc main_arg0)) (m ((c : Thread nD τ).loc main_arg2))) :=
  (W2_arr m ρ c 2).trans ((h0 (V1 m ρ) c).trans (congr (congrArg Gcn.lin (w1_arg0 m ρ c)) (w1_arg2 m ρ c)))
theorem w2_v3 : W2 (F := Ideal) m ρ c (Proc.devRef .tc main_v3) = Gcn.src (m ((c : Thread nD τ).loc main_arg1)) := (W2_of_ne m ρ c main_v3 (by decide)).trans (w1_v3 m ρ c)
theorem w2_v6 : W2 (F := Ideal) m ρ c (Proc.devRef .tc main_v6) = Gcn.dst (m ((c : Thread nD τ).loc main_arg1)) := (W2_of_ne m ρ c main_v6 (by decide)).trans (w1_v6 m ρ c)
theorem w2_v29 : W2 (F := Ideal) m ρ c (Proc.devRef .tc main_v29) = Gcn.norm (m ((c : Thread nD τ).loc main_arg1)) := (W2_of_ne m ρ c main_v29 (by decide)).trans (w1_v29 m ρ c)
theorem w2_arg3 : W2 (F := Ideal) m ρ c (Proc.devRef .tc main_arg3) = (m ((c : Thread nD τ).loc main_arg3)) := (W2_of_ne m ρ c main_arg3 (by decide)).trans (w1_arg3 m ρ c)
theorem w2_arg4 : W2 (F := Ideal) m ρ c (Proc.devRef .tc main_arg4) = (m ((c : Thread nD τ).loc main_arg4)) := (W2_of_ne m ρ c main_arg4 (by decide)).trans (w1_arg4 m ρ c)
theorem w2_arg5 : W2 (F := Ideal) m ρ c (Proc.devRef .tc main_arg5) = (m ((c : Thread nD τ).loc main_arg5)) := (W2_of_ne m ρ c main_arg5 (by decide)).trans (w1_arg5 m ρ c)
theorem w2_arg6 : W2 (F := Ideal) m ρ c (Proc.devRef .tc main_arg6) = (m ((c : Thread nD τ).loc main_arg6)) := (W2_of_ne m ρ c main_arg6 (by decide)).trans (w1_arg6 m ρ c)
theorem w2_arg7 : W2 (F := Ideal) m ρ c (Proc.devRef .tc main_arg7) = (m ((c : Thread nD τ).loc main_arg7)) := (W2_of_ne m ρ c main_arg7 (by decide)).trans (w1_arg7 m ρ c)
theorem w2_arg8 : W2 (F := Ideal) m ρ c (Proc.devRef .tc main_arg8) = (m ((c : Thread nD τ).loc main_arg8)) := (W2_of_ne m ρ c main_arg8 (by decide)).trans (w1_arg8 m ρ c)
theorem w2_arg9 : W2 (F := Ideal) m ρ c (Proc.devRef .tc main_arg9) = (m ((c : Thread nD τ).loc main_arg9)) := (W2_of_ne m ρ c main_arg9 (by decide)).trans (w1_arg9 m ρ c)
theorem w2_arg10 : W2 (F := Ideal) m ρ c (Proc.devRef .tc main_arg10) = (m ((c : Thread nD τ).loc main_arg10)) := (W2_of_ne m ρ c main_arg10 (by decide)).trans (w1_arg10 m ρ c)
theorem w2_arg11 : W2 (F := Ideal) m ρ c (Proc.devRef .tc main_arg11) = (m ((c : Thread nD τ).loc main_arg11)) := (W2_of_ne m ρ c main_arg11 (by decide)).trans (w1_arg11 m ρ c)
theorem w2_arg12 : W2 (F := Ideal) m ρ c (Proc.devRef .tc main_arg12) = (m ((c : Thread nD τ).loc main_arg12)) := (W2_of_ne m ρ c main_arg12 (by decide)).trans (w1_arg12 m ρ c)
theorem w2_arg13 : W2 (F := Ideal) m ρ c (Proc.devRef .tc main_arg13) = (m ((c : Thread nD τ).loc main_arg13)) := (W2_of_ne m ρ c main_arg13 (by decide)).trans (w1_arg13 m ρ c)
theorem w2_arg14 : W2 (F := Ideal) m ρ c (Proc.devRef .tc main_arg14) = (m ((c : Thread nD τ).loc main_arg14)) := (W2_of_ne m ρ c main_arg14 (by decide)).trans (w1_arg14 m ρ c)
theorem w2_arg15 : W2 (F := Ideal) m ρ c (Proc.devRef .tc main_arg15) = (m ((c : Thread nD τ).loc main_arg15)) := (W2_of_ne m ρ c main_arg15 (by decide)).trans (w1_arg15 m ρ c)
theorem w2_arg16 : W2 (F := Ideal) m ρ c (Proc.devRef .tc main_arg16) = (m ((c : Thread nD τ).loc main_arg16)) := (W2_of_ne m ρ c main_arg16 (by decide)).trans (w1_arg16 m ρ c)
theorem w2_arg17 : W2 (F := Ideal) m ρ c (Proc.devRef .tc main_arg17) = (m ((c : Thread nD τ).loc main_arg17)) := (W2_of_ne m ρ c main_arg17 (by decide)).trans (w1_arg17 m ρ c)

/-! ## After the second host stretch: the first aggregation, and the first layer's parameter rows -/
theorem w3_v42 (h0 : Lin0) : W3 (F := Ideal) m ρ c (Proc.devRef .tc main_v42) = (Gcn.aggr (Gcn.src (m ((c : Thread nD τ).loc main_arg1))) (Gcn.dst (m ((c : Thread nD τ).loc main_arg1))) (Gcn.norm (m ((c : Thread nD τ).loc main_arg1))) (Gcn.lin (m ((c : Thread nD τ).loc main_arg0)) (m ((c : Thread nD τ).loc main_arg2)))) := by
  show StableHlo.after hostOps1 (W2 m ρ c) (Proc.devRef .tc main_v42) = _
  after_results_simp
  rw [w2_v30 m ρ c h0, w2_v3 m ρ c, w2_v6 m ρ c, w2_v29 m ρ c]
  rfl
theorem w3_v43 : W3 (F := Ideal) m ρ c (Proc.devRef .tc main_v43) = (shapeCast S1x128 (m ((c : Thread nD τ).loc main_arg3)) Facts₀.shapeCasts_S128_S1x128) := by
  show StableHlo.after hostOps1 (W2 m ρ c) (Proc.devRef .tc main_v43) = _
  after_results_simp
  rw [w2_arg3 m ρ c]
  rfl
theorem w3_v44 : W3 (F := Ideal) m ρ c (Proc.devRef .tc main_v44) = (shapeCast S1x128 (m ((c : Thread nD τ).loc main_arg4)) Facts₀.shapeCasts_S128_S1x128) := by
  show StableHlo.after hostOps1 (W2 m ρ c) (Proc.devRef .tc main_v44) = _
  after_results_simp
  rw [w2_arg4 m ρ c]
  rfl
theorem w3_v45 : W3 (F := Ideal) m ρ c (Proc.devRef .tc main_v45) = (shapeCast S1x128 (m ((c : Thread nD τ).loc main_arg5)) Facts₀.shapeCasts_S128_S1x128) := by
  show StableHlo.after hostOps1 (W2 m ρ c) (Proc.devRef .tc main_v45) = _
  after_results_simp
  rw [w2_arg5 m ρ c]
  rfl
theorem w3_v46 : W3 (F := Ideal) m ρ c (Proc.devRef .tc main_v46) = (shapeCast S1x128 (m ((c : Thread nD τ).loc main_arg6)) Facts₀.shapeCasts_S128_S1x128) := by
  show StableHlo.after hostOps1 (W2 m ρ c) (Proc.devRef .tc main_v46) = _
  after_results_simp
  rw [w2_arg6 m ρ c]
  rfl
theorem w3_v47 : W3 (F := Ideal) m ρ c (Proc.devRef .tc main_v47) = (shapeCast S1x128 (m ((c : Thread nD τ).loc main_arg7)) Facts₀.shapeCasts_S128_S1x128) := by
  show StableHlo.after hostOps1 (W2 m ρ c) (Proc.devRef .tc main_v47) = _
  after_results_simp
  rw [w2_arg7 m ρ c]
  rfl
theorem w3_v3 : W3 (F := Ideal) m ρ c (Proc.devRef .tc main_v3) = Gcn.src (m ((c : Thread nD τ).loc main_arg1)) := by
  show StableHlo.after hostOps1 (W2 m ρ c) (Proc.devRef .tc main_v3) = _
  after_results_simp
  exact w2_v3 m ρ c
theorem w3_v6 : W3 (F := Ideal) m ρ c (Proc.devRef .tc main_v6) = Gcn.dst (m ((c : Thread nD τ).loc main_arg1)) := by
  show StableHlo.after hostOps1 (W2 m ρ c) (Proc.devRef .tc main_v6) = _
  after_results_simp
  exact w2_v6 m ρ c
theorem w3_v29 : W3 (F := Ideal) m ρ c (Proc.devRef .tc main_v29) = Gcn.norm (m ((c : Thread nD τ).loc main_arg1)) := by
  show StableHlo.after hostOps1 (W2 m ρ c) (Proc.devRef .tc main_v29) = _
  after_results_simp
  exact w2_v29 m ρ c
theorem w3_arg8 : W3 (F := Ideal) m ρ c (Proc.devRef .tc main_arg8) = (m ((c : Thread nD τ).loc main_arg8)) := by
  show StableHlo.after hostOps1 (W2 m ρ c) (Proc.devRef .tc main_arg8) = _
  after_results_simp
  exact w2_arg8 m ρ c
theorem w3_arg9 : W3 (F := Ideal) m ρ c (Proc.devRef .tc main_arg9) = (m ((c : Thread nD τ).loc main_arg9)) := by
  show StableHlo.after hostOps1 (W2 m ρ c) (Proc.devRef .tc main_arg9) = _
  after_results_simp
  exact w2_arg9 m ρ c
theorem w3_arg10 : W3 (F := Ideal) m ρ c (Proc.devRef .tc main_arg10) = (m ((c : Thread nD τ).loc main_arg10)) := by
  show StableHlo.after hostOps1 (W2 m ρ c) (Proc.devRef .tc main_arg10) = _
  after_results_simp
  exact w2_arg10 m ρ c
theorem w3_arg11 : W3 (F := Ideal) m ρ c (Proc.devRef .tc main_arg11) = (m ((c : Thread nD τ).loc main_arg11)) := by
  show StableHlo.after hostOps1 (W2 m ρ c) (Proc.devRef .tc main_arg11) = _
  after_results_simp
  exact w2_arg11 m ρ c
theorem w3_arg12 : W3 (F := Ideal) m ρ c (Proc.devRef .tc main_arg12) = (m ((c : Thread nD τ).loc main_arg12)) := by
  show StableHlo.after hostOps1 (W2 m ρ c) (Proc.devRef .tc main_arg12) = _
  after_results_simp
  exact w2_arg12 m ρ c
theorem w3_arg13 : W3 (F := Ideal) m ρ c (Proc.devRef .tc main_arg13) = (m ((c : Thread nD τ).loc main_arg13)) := by
  show StableHlo.after hostOps1 (W2 m ρ c) (Proc.devRef .tc main_arg13) = _
  after_results_simp
  exact w2_arg13 m ρ c
theorem w3_arg14 : W3 (F := Ideal) m ρ c (Proc.devRef .tc main_arg14) = (m ((c : Thread nD τ).loc main_arg14)) := by
  show StableHlo.after hostOps1 (W2 m ρ c) (Proc.devRef .tc main_arg14) = _
  after_results_simp
  exact w2_arg14 m ρ c
theorem w3_arg15 : W3 (F := Ideal) m ρ c (Proc.devRef .tc main_arg15) = (m ((c : Thread nD τ).loc main_arg15)) := by
  show StableHlo.after hostOps1 (W2 m ρ c) (Proc.devRef .tc main_arg15) = _
  after_results_simp
  exact w2_arg15 m ρ c
theorem w3_arg16 : W3 (F := Ideal) m ρ c (Proc.devRef .tc main_arg16) = (m ((c : Thread nD τ).loc main_arg16)) := by
  show StableHlo.after hostOps1 (W2 m ρ c) (Proc.devRef .tc main_arg16) = _
  after_results_simp
  exact w2_arg16 m ρ c
theorem w3_arg17 : W3 (F := Ideal) m ρ c (Proc.devRef .tc main_arg17) = (m ((c : Thread nD τ).loc main_arg17)) := by
  show StableHlo.after hostOps1 (W2 m ρ c) (Proc.devRef .tc main_arg17) = _
  after_results_simp
  exact w2_arg17 m ρ c

/-! ## After the first normalisation: the first layer -/
theorem w4_v48 (h0 : Lin0) (h1 : Bn1) : W4 (F := Ideal) m ρ c (Proc.devRef .tc main_v48) = (Gcn.layer (m ((c : Thread nD τ).loc main_arg1)) (m ((c : Thread nD τ).loc main_arg0)) (m ((c : Thread nD τ).loc main_arg2)) (shapeCast S1x128 (m ((c : Thread nD τ).loc main_arg3)) Facts₀.shapeCasts_S128_S1x128) (shapeCast S1x128 (m ((c : Thread nD τ).loc main_arg4)) Facts₀.shapeCasts_S128_S1x128) (shapeCast S1x128 (m ((c : Thread nD τ).loc main_arg5)) Facts₀.shapeCasts_S128_S1x128) (shapeCast S1x128 (m ((c : Thread nD τ).loc main_arg6)) Facts₀.shapeCasts_S128_S1x128) (shapeCast S1x128 (m ((c : Thread nD τ).loc main_arg7)) Facts₀.shapeCasts_S128_S1x128)) :=
  (W4_arr m ρ c 6).trans ((h1 (V3 m ρ) c).trans (congr (congr (congr (congr (congr (congrArg Gcn.bn (w3_v42 m ρ c h0)) (w3_v43 m ρ c)) (w3_v44 m ρ c)) (w3_v45 m ρ c)) (w3_v46 m ρ c)) (w3_v47 m ρ c)))
theorem w4_v3 : W4 (F := Ideal) m ρ c (Proc.devRef .tc main_v3) = Gcn.src (m ((c : Thread nD τ).loc main_arg1)) := (W4_of_ne m ρ c main_v3 (by decide)).trans (w3_v3 m ρ c)
theorem w4_v6 : W4 (F := Ideal) m ρ c (Proc.devRef .tc main_v6) = Gcn.dst (m ((c : Thread nD τ).loc main_arg1)) := (W4_of_ne m ρ c main_v6 (by decide)).trans (w3_v6 m ρ c)
theorem w4_v29 : W4 (F := Ideal) m ρ c (Proc.devRef .tc main_v29) = Gcn.norm (m ((c : Thread nD τ).loc main_arg1)) := (W4_of_ne m ρ c main_v29 (by decide)).trans (w3_v29 m ρ c)
theorem w4_arg8 : W4 (F := Ideal) m ρ c (Proc.devRef .tc main_arg8) = (m ((c : Thread nD τ).loc main_arg8)) := (W4_of_ne m ρ c main_arg8 (by decide)).trans (w3_arg8 m ρ c)
theorem w4_arg9 : W4 (F := Ideal) m ρ c (Proc.devRef .tc main_arg9) = (m ((c : Thread nD τ).loc main_arg9)) := (W4_of_ne m ρ c main_arg9 (by decide)).trans (w3_arg9 m ρ c)
theorem w4_arg10 : W4 (F := Ideal) m ρ c (Proc.devRef .tc main_arg10) = (m ((c : Thread nD τ).loc main_arg10)) := (W4_of_ne m ρ c main_arg10 (by decide)).trans (w3_arg10 m ρ c)
theorem w4_arg11 : W4 (F := Ideal) m ρ c (Proc.devRef .tc main_arg11) = (m ((c : Thread nD τ).loc main_arg11)) := (W4_of_ne m ρ c main_arg11 (by decide)).trans (w3_arg11 m ρ c)
theorem w4_arg12 : W4 (F := Ideal) m ρ c (Proc.devRef .tc main_arg12) = (m ((c : Thread nD τ).loc main_arg12)) := (W4_of_ne m ρ c main_arg12 (by decide)).trans (w3_arg12 m ρ c)
theorem w4_arg13 : W4 (F := Ideal) m ρ c (Proc.devRef .tc main_arg13) = (m ((c : Thread nD τ).loc main_arg13)) := (W4_of_ne m ρ c main_arg13 (by decide)).trans (w3_arg13 m ρ c)
theorem w4_arg14 : W4 (F := Ideal) m ρ c (Proc.devRef .tc main_arg14) = (m ((c : Thread nD τ).loc main_arg14)) := (W4_of_ne m ρ c main_arg14 (by decide)).trans (w3_arg14 m ρ c)
theorem w4_arg15 : W4 (F := Ideal) m ρ c (Proc.devRef .tc main_arg15) = (m ((c : Thread nD τ).loc main_arg15)) := (W4_of_ne m ρ c main_arg15 (by decide)).trans (w3_arg15 m ρ c)
theorem w4_arg16 : W4 (F := Ideal) m ρ c (Proc.devRef .tc main_arg16) = (m ((c : Thread nD τ).loc main_arg16)) := (W4_of_ne m ρ c main_arg16 (by decide)).trans (w3_arg16 m ρ c)
theorem w4_arg17 : W4 (F := Ideal) m ρ c (Proc.devRef .tc main_arg17) = (m ((c : Thread nD τ).loc main_arg17)) := (W4_of_ne m ρ c main_arg17 (by decide)).trans (w3_arg17 m ρ c)

/-! ## After the second dense layer -/
theorem w5_v49 (h0 : Lin0) (h1 : Bn1) (h2 : Lin2) : W5 (F := Ideal) m ρ c (Proc.devRef .tc main_v49) = (Gcn.lin (Gcn.layer (m ((c : Thread nD τ).loc main_arg1)) (m ((c : Thread nD τ).loc main_arg0)) (m ((c : Thread nD τ).loc main_arg2)) (shapeCast S1x128 (m ((c : Thread nD τ).loc main_arg3)) Facts₀.shapeCasts_S128_S1x128) (shapeCast S1x128 (m ((c : Thread nD τ).loc main_arg4)) Facts₀.shapeCasts_S128_S1x128) (shapeCast S1x128 (m ((c : Thread nD τ).loc main_arg5)) Facts₀.shapeCasts_S128_S1x128) (shapeCast S1x128 (m ((c : Thread nD τ).loc main_arg6)) Facts₀.shapeCasts_S128_S1x128) (shapeCast S1x128 (m ((c : Thread nD τ).loc main_arg7)) Facts₀.shapeCasts_S128_S1x128)) (m ((c : Thread nD τ).loc main_arg8))) :=
  (W5_arr m ρ c 2).trans ((h2 (V4 m ρ) c).trans (congr (congrArg Gcn.lin (w4_v48 m ρ c h0 h1)) (w4_arg8 m ρ c)))
theorem w5_v3 : W5 (F := Ideal) m ρ c (Proc.devRef .tc main_v3) = Gcn.src (m ((c : Thread nD τ).loc main_arg1)) := (W5_of_ne m ρ c main_v3 (by decide)).trans (w4_v3 m ρ c)
theorem w5_v6 : W5 (F := Ideal) m ρ c (Proc.devRef .tc main_v6) = Gcn.dst (m ((c : Thread nD τ).loc main_arg1)) := (W5_of_ne m ρ c main_v6 (by decide)).trans (w4_v6 m ρ c)
theorem w5_v29 : W5 (F := Ideal) m ρ c (Proc.devRef .tc main_v29) = Gcn.norm (m ((c : Thread nD τ).loc main_arg1)) := (W5_of_ne m ρ c main_v29 (by decide)).trans (w4_v29 m ρ c)
theorem w5_arg9 : W5 (F := Ideal) m ρ c (Proc.devRef .tc main_arg9) = (m ((c : Thread nD τ).loc main_arg9)) := (W5_of_ne m ρ c main_arg9 (by decide)).trans (w4_arg9 m ρ c)
theorem w5_arg10 : W5 (F := Ideal) m ρ c (Proc.devRef .tc main_arg10) = (m ((c : Thread nD τ).loc main_arg10)) := (W5_of_ne m ρ c main_arg10 (by decide)).trans (w4_arg10 m ρ c)
theorem w5_arg11 : W5 (F := Ideal) m ρ c (Proc.devRef .tc main_arg11) = (m ((c : Thread nD τ).loc main_arg11)) := (W5_of_ne m ρ c main_arg11 (by decide)).trans (w4_arg11 m ρ c)
theorem w5_arg12 : W5 (F := Ideal) m ρ c (Proc.devRef .tc main_arg12) = (m ((c : Thread nD τ).loc main_arg12)) := (W5_of_ne m ρ c main_arg12 (by decide)).trans (w4_arg12 m ρ c)
theorem w5_arg13 : W5 (F := Ideal) m ρ c (Proc.devRef .tc main_arg13) = (m ((c : Thread nD τ).loc main_arg13)) := (W5_of_ne m ρ c main_arg13 (by decide)).trans (w4_arg13 m ρ c)
theorem w5_arg14 : W5 (F := Ideal) m ρ c (Proc.devRef .tc main_arg14) = (m ((c : Thread nD τ).loc main_arg14)) := (W5_of_ne m ρ c main_arg14 (by decide)).trans (w4_arg14 m ρ c)
theorem w5_arg15 : W5 (F := Ideal) m ρ c (Proc.devRef .tc main_arg15) = (m ((c : Thread nD τ).loc main_arg15)) := (W5_of_ne m ρ c main_arg15 (by decide)).trans (w4_arg15 m ρ c)
theorem w5_arg16 : W5 (F := Ideal) m ρ c (Proc.devRef .tc main_arg16) = (m ((c : Thread nD τ).loc main_arg16)) := (W5_of_ne m ρ c main_arg16 (by decide)).trans (w4_arg16 m ρ c)
theorem w5_arg17 : W5 (F := Ideal) m ρ c (Proc.devRef .tc main_arg17) = (m ((c : Thread nD τ).loc main_arg17)) := (W5_of_ne m ρ c main_arg17 (by decide)).trans (w4_arg17 m ρ c)

/-! ## After the third host stretch: the second aggregation, and the second layer's parameter rows -/
theorem w6_v61 (h0 : Lin0) (h1 : Bn1) (h2 : Lin2) : W6 (F := Ideal) m ρ c (Proc.devRef .tc main_v61) = (Gcn.aggr (Gcn.src (m ((c : Thread nD τ).loc main_arg1))) (Gcn.dst (m ((c : Thread nD τ).loc main_arg1))) (Gcn.norm (m ((c : Thread nD τ).loc main_arg1))) (Gcn.lin (Gcn.layer (m ((c : Thread nD τ).loc main_arg1)) (m ((c : Thread nD τ).loc main_arg0)) (m ((c : Thread nD τ).loc main_arg2)) (shapeCast S1x128 (m ((c : Thread nD τ).loc main_arg3)) Facts₀.shapeCasts_S128_S1x128) (shapeCast S1x128 (m ((c : Thread nD τ).loc main_arg4)) Facts₀.shapeCasts_S128_S1x128) (shapeCast S1x128 (m ((c : Thread nD τ).loc main_arg5)) Facts₀.shapeCasts_S128_S1x128) (shapeCast S1x128 (m ((c : Thread nD τ).loc main_arg6)) Facts₀.shapeCasts_S128_S1x128) (shapeCast S1x128 (m ((c : Thread nD τ).loc main_arg7)) Facts₀.shapeCasts_S128_S1x128)) (m ((c : Thread nD τ).loc main_arg8)))) := by
  show StableHlo.after hostOps3 (W5 m ρ c) (Proc.devRef .tc main_v61) = _
  after_results_simp
  rw [w5_v49 m ρ c h0 h1 h2, w5_v3 m ρ c, w5_v6 m ρ c, w5_v29 m ρ c]
  rfl
theorem w6_v62 : W6 (F := Ideal) m ρ c (Proc.devRef .tc main_v62) = (shapeCast S1x128 (m ((c : Thread nD τ).loc main_arg9)) Facts₀.shapeCasts_S128_S1x128) := by
  show StableHlo.after hostOps3 (W5 m ρ c) (Proc.devRef .tc main_v62) = _
  after_results_simp
  rw [w5_arg9 m ρ c]
  rfl
theorem w6_v63 : W6 (F := Ideal) m ρ c (Proc.devRef .tc main_v63) = (shapeCast S1x128 (m ((c : Thread nD τ).loc main_arg10)) Facts₀.shapeCasts_S128_S1x128) := by
  show StableHlo.after hostOps3 (W5 m ρ c) (Proc.devRef .tc main_v63) = _
  after_results_simp
  rw [w5_arg10 m ρ c]
  rfl
theorem w6_v64 : W6 (F := Ideal) m ρ c (Proc.devRef .tc main_v64) = (shapeCast S1x128 (m ((c : Thread nD τ).loc main_arg11)) Facts₀.shapeCasts_S128_S1x128) := by
  show StableHlo.after hostOps3 (W5 m ρ c) (Proc.devRef .tc main_v64) = _
  after_results_simp
  rw [w5_arg11 m ρ c]
  rfl
theorem w6_v65 : W6 (F := Ideal) m ρ c (Proc.devRef .tc main_v65) = (shapeCast S1x128 (m ((c : Thread nD τ).loc main_arg12)) Facts₀.shapeCasts_S128_S1x128) := by
  show StableHlo.after hostOps3 (W5 m ρ c) (Proc.devRef .tc main_v65) = _
  after_results_simp
  rw [w5_arg12 m ρ c]
  rfl
theorem w6_v66 : W6 (F := Ideal) m ρ c (Proc.devRef .tc main_v66) = (shapeCast S1x128 (m ((c : Thread nD τ).loc main_arg13)) Facts₀.shapeCasts_S128_S1x128) := by
  show StableHlo.after hostOps3 (W5 m ρ c) (Proc.devRef .tc main_v66) = _
  after_results_simp
  rw [w5_arg13 m ρ c]
  rfl
theorem w6_arg14 : W6 (F := Ideal) m ρ c (Proc.devRef .tc main_arg14) = (m ((c : Thread nD τ).loc main_arg14)) := by
  show StableHlo.after hostOps3 (W5 m ρ c) (Proc.devRef .tc main_arg14) = _
  after_results_simp
  exact w5_arg14 m ρ c
theorem w6_arg15 : W6 (F := Ideal) m ρ c (Proc.devRef .tc main_arg15) = (m ((c : Thread nD τ).loc main_arg15)) := by
  show StableHlo.after hostOps3 (W5 m ρ c) (Proc.devRef .tc main_arg15) = _
  after_results_simp
  exact w5_arg15 m ρ c
theorem w6_arg16 : W6 (F := Ideal) m ρ c (Proc.devRef .tc main_arg16) = (m ((c : Thread nD τ).loc main_arg16)) := by
  show StableHlo.after hostOps3 (W5 m ρ c) (Proc.devRef .tc main_arg16) = _
  after_results_simp
  exact w5_arg16 m ρ c
theorem w6_arg17 : W6 (F := Ideal) m ρ c (Proc.devRef .tc main_arg17) = (m ((c : Thread nD τ).loc main_arg17)) := by
  show StableHlo.after hostOps3 (W5 m ρ c) (Proc.devRef .tc main_arg17) = _
  after_results_simp
  exact w5_arg17 m ρ c

/-! ## After the second normalisation: the second layer -/
theorem w7_v67 (h0 : Lin0) (h1 : Bn1) (h2 : Lin2) (h3 : Bn3) : W7 (F := Ideal) m ρ c (Proc.devRef .tc main_v67) = (Gcn.layer (m ((c : Thread nD τ).loc main_arg1)) (Gcn.layer (m ((c : Thread nD τ).loc main_arg1)) (m ((c : Thread nD τ).loc main_arg0)) (m ((c : Thread nD τ).loc main_arg2)) (shapeCast S1x128 (m ((c : Thread nD τ).loc main_arg3)) Facts₀.shapeCasts_S128_S1x128) (shapeCast S1x128 (m ((c : Thread nD τ).loc main_arg4)) Facts₀.shapeCasts_S128_S1x128) (shapeCast S1x128 (m ((c : Thread nD τ).loc main_arg5)) Facts₀.shapeCasts_S128_S1x128) (shapeCast S1x128 (m ((c : Thread nD τ).loc main_arg6)) Facts₀.shapeCasts_S128_S1x128) (shapeCast S1x128 (m ((c : Thread nD τ).loc main_arg7)) Facts₀.shapeCasts_S128_S1x128)) (m ((c : Thread nD τ).loc main_arg8)) (shapeCast S1x128 (m ((c : Thread nD τ).loc main_arg9)) Facts₀.shapeCasts_S128_S1x128) (shapeCast S1x128 (m ((c : Thread nD τ).loc main_arg10)) Facts₀.shapeCasts_S128_S1x128) (shapeCast S1x128 (m ((c : Thread nD τ).loc main_arg11)) Facts₀.shapeCasts_S128_S1x128) (shapeCast S1x128 (m ((c : Thread nD τ).loc main_arg12)) Facts₀.shapeCasts_S128_S1x128) (shapeCast S1x128 (m ((c : Thread nD τ).loc main_arg13)) Facts₀.shapeCasts_S128_S1x128)) :=
  (W7_arr m ρ c 6).trans ((h3 (V6 m ρ) c).trans (congr (congr (congr (congr (congr (congrArg Gcn.bn (w6_v61 m ρ c h0 h1 h2)) (w6_v62 m ρ c)) (w6_v63 m ρ c)) (w6_v64 m ρ c)) (w6_v65 m ρ c)) (w6_v66 m ρ c)))
theorem w7_arg14 : W7 (F := Ideal) m ρ c (Proc.devRef .tc main_arg14) = (m ((c : Thread nD τ).loc main_arg14)) := (W7_of_ne m ρ c main_arg14 (by decide)).trans (w6_arg14 m ρ c)
theorem w7_arg15 : W7 (F := Ideal) m ρ c (Proc.devRef .tc main_arg15) = (m ((c : Thread nD τ).loc main_arg15)) := (W7_of_ne m ρ c main_arg15 (by decide)).trans (w6_arg15 m ρ c)
theorem w7_arg16 : W7 (F := Ideal) m ρ c (Proc.devRef .tc main_arg16) = (m ((c : Thread nD τ).loc main_arg16)) := (W7_of_ne m ρ c main_arg16 (by decide)).trans (w6_arg16 m ρ c)
theorem w7_arg17 : W7 (F := Ideal) m ρ c (Proc.devRef .tc main_arg17) = (m ((c : Thread nD τ).loc main_arg17)) := (W7_of_ne m ρ c main_arg17 (by decide)).trans (w6_arg17 m ρ c)

/-! ## After the last host stretch: the head's two bias rows -/
theorem w8_v67 (h0 : Lin0) (h1 : Bn1) (h2 : Lin2) (h3 : Bn3) : W8 (F := Ideal) m ρ c (Proc.devRef .tc main_v67) = (Gcn.layer (m ((c : Thread nD τ).loc main_arg1)) (Gcn.layer (m ((c : Thread nD τ).loc main_arg1)) (m ((c : Thread nD τ).loc main_arg0)) (m ((c : Thread nD τ).loc main_arg2)) (shapeCast S1x128 (m ((c : Thread nD τ).loc main_arg3)) Facts₀.shapeCasts_S128_S1x128) (shapeCast S1x128 (m ((c : Thread nD τ).loc main_arg4)) Facts₀.shapeCasts_S128_S1x128) (shapeCast S1x128 (m ((c : Thread nD τ).loc main_arg5)) Facts₀.shapeCasts_S128_S1x128) (shapeCast S1x128 (m ((c : Thread nD τ).loc main_arg6)) Facts₀.shapeCasts_S128_S1x128) (shapeCast S1x128 (m ((c : Thread nD τ).loc main_arg7)) Facts₀.shapeCasts_S128_S1x128)) (m ((c : Thread nD τ).loc main_arg8)) (shapeCast S1x128 (m ((c : Thread nD τ).loc main_arg9)) Facts₀.shapeCasts_S128_S1x128) (shapeCast S1x128 (m ((c : Thread nD τ).loc main_arg10)) Facts₀.shapeCasts_S128_S1x128) (shapeCast S1x128 (m ((c : Thread nD τ).loc main_arg11)) Facts₀.shapeCasts_S128_S1x128) (shapeCast S1x128 (m ((c : Thread nD τ).loc main_arg12)) Facts₀.shapeCasts_S128_S1x128) (shapeCast S1x128 (m ((c : Thread nD τ).loc main_arg13)) Facts₀.shapeCasts_S128_S1x128)) := by
  show StableHlo.after hostOps4 (W7 m ρ c) (Proc.devRef .tc main_v67) = _
  after_results_simp
  exact w7_v67 m ρ c h0 h1 h2 h3
theorem w8_v68 : W8 (F := Ideal) m ρ c (Proc.devRef .tc main_v68) = (shapeCast S1x128 (m ((c : Thread nD τ).loc main_arg15)) Facts₀.shapeCasts_S128_S1x128) := by
  show StableHlo.after hostOps4 (W7 m ρ c) (Proc.devRef .tc main_v68) = _
  after_results_simp
  rw [w7_arg15 m ρ c]
  rfl
theorem w8_v69 : W8 (F := Ideal) m ρ c (Proc.devRef .tc main_v69) = (shapeCast S1x1 (m ((c : Thread nD τ).loc main_arg17)) Facts₀.shapeCasts_S1_S1x1) := by
  show StableHlo.after hostOps4 (W7 m ρ c) (Proc.devRef .tc main_v69) = _
  after_results_simp
  rw [w7_arg17 m ρ c]
  rfl
theorem w8_arg14 : W8 (F := Ideal) m ρ c (Proc.devRef .tc main_arg14) = (m ((c : Thread nD τ).loc main_arg14)) := by
  show StableHlo.after hostOps4 (W7 m ρ c) (Proc.devRef .tc main_arg14) = _
  after_results_simp
  exact w7_arg14 m ρ c
theorem w8_arg16 : W8 (F := Ideal) m ρ c (Proc.devRef .tc main_arg16) = (m ((c : Thread nD τ).loc main_arg16)) := by
  show StableHlo.after hostOps4 (W7 m ρ c) (Proc.devRef .tc main_arg16) = _
  after_results_simp
  exact w7_arg16 m ρ c

/-! ## After the head: the result -/
/-- The result buffer at the last boundary is the whole network of the arguments as launched. -/
theorem result (h0 : Lin0) (h1 : Bn1) (h2 : Lin2) (h3 : Bn3) (h4 : Head4) : W9 (F := Ideal) m ρ c (Proc.devRef .tc main_v70) = Gcn.net (m ((c : Thread nD τ).loc main_arg1)) (m ((c : Thread nD τ).loc main_arg0)) (m ((c : Thread nD τ).loc main_arg2)) (shapeCast S1x128 (m ((c : Thread nD τ).loc main_arg3)) Facts₀.shapeCasts_S128_S1x128) (shapeCast S1x128 (m ((c : Thread nD τ).loc main_arg4)) Facts₀.shapeCasts_S128_S1x128) (shapeCast S1x128 (m ((c : Thread nD τ).loc main_arg5)) Facts₀.shapeCasts_S128_S1x128) (shapeCast S1x128 (m ((c : Thread nD τ).loc main_arg6)) Facts₀.shapeCasts_S128_S1x128) (shapeCast S1x128 (m ((c : Thread nD τ).loc main_arg7)) Facts₀.shapeCasts_S128_S1x128) (m ((c : Thread nD τ).loc main_arg8)) (shapeCast S1x128 (m ((c : Thread nD τ).loc main_arg9)) Facts₀.shapeCasts_S128_S1x128) (shapeCast S1x128 (m ((c : Thread nD τ).loc main_arg10)) Facts₀.shapeCasts_S128_S1x128) (shapeCast S1x128 (m ((c : Thread nD τ).loc main_arg11)) Facts₀.shapeCasts_S128_S1x128) (shapeCast S1x128 (m ((c : Thread nD τ).loc main_arg12)) Facts₀.shapeCasts_S128_S1x128) (shapeCast S1x128 (m ((c : Thread nD τ).loc main_arg13)) Facts₀.shapeCasts_S128_S1x128) (m ((c : Thread nD τ).loc main_arg14)) (shapeCast S1x128 (m ((c : Thread nD τ).loc main_arg15)) Facts₀.shapeCasts_S128_S1x128) (m ((c : Thread nD τ).loc main_arg16)) (shapeCast S1x1 (m ((c : Thread nD τ).loc main_arg17)) Facts₀.shapeCasts_S1_S1x1) :=
  (W9_arr m ρ c 5).trans ((h4 (V8 m ρ) c).trans (congr (congr (congr (congr (congrArg Gcn.head (w8_v67 m ρ c h0 h1 h2 h3)) (w8_arg14 m ρ c)) (w8_v68 m ρ c)) (w8_arg16 m ρ c)) (w8_v69 m ρ c)))

end Cert.KernelIdeal.Walk

end
-- ==== Proof.RegionLin0.lean ====
/-
  The first dense layer of the network, read off the tiled kernel as one whole-array function.

  The kernel visits 50 grid points.  At point t it holds rows 2000·t … 2000·t + 1999 of the input matrix x
  (a [2000,128] block), the whole [128,128] weight matrix w, and writes a [2000,128] block of the output at the
  same rows.  The block it writes is the matrix product of the two blocks it holds, accumulated from zero; on the
  extended reals the change of float format before the product is the identity, so entry (p, q) of the block is
  the sum over k of x (2000·t + p, k) * w (k, q).  That is entry (2000·t + p, q) of the dense layer of the
  specification, so each written block is the restriction of ONE function of the whole arrays to the block's
  rows; the 50 blocks tile the 100000 rows (row r lies in block r / 2000), hence the output array ends holding
  that function everywhere.
-/
import proofs.«114808_j31499290149338_1_alg».proof.Proof.Gen.KernelIdeal.Frame
import proofs.«114808_j31499290149338_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Lin0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

/-- The zero offset of a whole-buffer access, as the constant function. -/
theorem hz : (![0, 0] : Fin 2 → Nat) = fun _ => 0 := funext fun a => by fin_cases a <;> rfl

/-! ## The block product at an index -/

/-- The dimension numbers of the block product: the left operand's axis 1 is contracted with the right operand's axis 0. -/
abbrev DD : DotDims S2000x128 S128x128 S2000x128 := dot_S2000x128_S128x128_S2000x128_1_0_0_1_n_n

/-- The left operand is read at the output's row … -/
theorem lhs_0 (i : S2000x128.Idx) (q : DD.contr.Idx) : (DD.lhsIdx i q 0).val = (i 0).val := by
  unfold DotDims.lhsIdx
  rw [dif_neg (show ¬(0 : Fin S2000x128.rank) ∈ DD.lhsBatch by decide), dif_pos (show (0 : Fin S2000x128.rank) ∈ DD.lhsNonContracting by decide)]
  rfl
/-- … and at the contraction position's column. -/
theorem lhs_1 (i : S2000x128.Idx) (q : DD.contr.Idx) : (DD.lhsIdx i q 1).val = (q ⟨0, by decide⟩).val :=
  DD.lhsIdx_val_of_single rfl i q
/-- The right operand is read at the contraction position's row … -/
theorem rhs_0 (i : S2000x128.Idx) (q : DD.contr.Idx) : (DD.rhsIdx i q 0).val = (q ⟨0, by decide⟩).val :=
  DD.rhsIdx_val_of_single rfl i q
/-- … and at the output's column. -/
theorem rhs_1 (i : S2000x128.Idx) (q : DD.contr.Idx) : (DD.rhsIdx i q 1).val = (i 1).val := by
  unfold DotDims.rhsIdx
  rw [dif_neg (show ¬(1 : Fin S128x128.rank) ∈ DD.rhsBatch by decide), dif_pos (show (1 : Fin S128x128.rank) ∈ DD.rhsNonContracting by decide)]
  rfl

/-- Entry (p, q) of what the body stores: row p of the first block against column q of the second, summed over the
    128 contracted positions (the product starts from the zero accumulator, and rounding to the narrower float
    format is the identity on the extended reals). -/
theorem pay_apply (x0 : Vec Ideal S2000x128 .f32) (x1 : Vec Ideal S128x128 .f32) (p : Fin 2000) (q : Fin 128) :
    k0_pay1 (F := Ideal) x0 x1 (ix2 p q) = ∑ k : Fin 128, x0 (ix2 p k) * x1 (ix2 k q) := by
  unfold k0_pay1
  refine (Ideal.matmul_constant_zero_apply DD none _ _ (ix2 p q)).trans ?_
  rw [← Equiv.sum_comp (contrEquiv1 DD 128 rfl rfl).symm]
  refine Finset.sum_congr rfl fun k _ => ?_
  have hk := contrEquiv1_symm_val DD 128 rfl rfl k
  have el : DD.lhsIdx (ix2 p q) ((contrEquiv1 DD 128 rfl rfl).symm k) = ix2 p k := funext fun a => Fin.ext (by
    match a with
    | ⟨0, _⟩ => exact lhs_0 _ _
    | ⟨1, _⟩ => exact (lhs_1 _ _).trans hk)
  have er : DD.rhsIdx (ix2 p q) ((contrEquiv1 DD 128 rfl rfl).symm k) = ix2 k q := funext fun a => Fin.ext (by
    match a with
    | ⟨0, _⟩ => exact (rhs_0 _ _).trans hk
    | ⟨1, _⟩ => exact rhs_1 _ _)
  rw [el, er]
  rfl

/-- The dense layer of the specification at row r and column q. -/
theorem lin_apply (x : FVec Ideal S100000x128 .f32) (w : FVec Ideal S128x128 .f32) (r : Fin 100000) (q : Fin 128) :
    Cert.Gcn.lin x w (ix2 r q) = ∑ k : Fin 128, x (ix2 r k) * w (ix2 k q) := rfl

/-! ## From blocks to the array -/

variable (V : (c : Dev nD) → (b : Ref sig .tc) → Buf (Elt Ideal) ((c : Thread nD τ).loc b))

/-- The printed index maps, decided once over the grid: at point t the input rows' and the output rows' windows sit at
    block (t, 0), the weight matrix's window at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the input block at point t is entry (2000·t + p, k) of the input matrix. -/
theorem blk0_apply (c : Dev nD) (t : Fin cfg0.N) (p : Fin 2000) (k : Fin 128) (r : Fin 100000)
    (hr : r.val = 2000 * t.val + p.val) :
    (iblk0 (F := Ideal) V c 0 t : Vec Ideal S2000x128 .f32) (ix2 p k) = (V c main_arg0 : FVec Ideal S100000x128 .f32) (ix2 r k) := by
  obtain ⟨e0, e1, -, -, -, -⟩ := idx_facts t
  unfold iblk0
  rw [View.read_apply]
  show V c main_arg0 (((cfg0.win 0).blk t).view.emb (ix2 p k)) = V c main_arg0 (ix2 r k)
  refine congrArg _ ?_
  funext a
  apply Fin.ext
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- The weight block at every point is the whole weight matrix. -/
theorem blk1_apply (c : Dev nD) (t : Fin cfg0.N) (k : Fin 128) (q : Fin 128) :
    (iblk0 (F := Ideal) V c 1 t : Vec Ideal S128x128 .f32) (ix2 k q) = (V c main_arg2 : FVec Ideal S128x128 .f32) (ix2 k q) := by
  obtain ⟨-, -, e2, e3, -, -⟩ := idx_facts t
  unfold iblk0
  rw [View.read_apply]
  show V c main_arg2 (((cfg0.win 1).blk t).view.emb (ix2 k q)) = V c main_arg2 (ix2 k q)
  refine congrArg _ ?_
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- Entry (p, q) of the output block at point t sits at (2000·t + p, q) in the output array. -/
theorem blk2_emb (t : Fin cfg0.N) (p : Fin 2000) (q : Fin 128) (r : Fin 100000)
    (hr : r.val = 2000 * t.val + p.val) :
    (((cfg0.win 2).blk t).view.emb (ix2 p q) : S100000x128.Idx) = ix2 r q := by
  obtain ⟨-, -, -, -, e4, e5⟩ := idx_facts t
  funext a
  apply Fin.ext
  match a with
  | ⟨0, _⟩ => show win0_2.index t (0 : Fin 2) * 2000 + 1 * p.val = r.val; rw [e4, hr]; omega
  | ⟨1, _⟩ => show win0_2.index t (1 : Fin 2) * 128 + 1 * q.val = q.val; rw [e5]; omega

/-- WHAT POINT t WRITES BACK is block t of the dense layer of the arrays as the region finds them. -/
theorem flushed_eq (c : Dev nD) (t : Fin cfg0.N) :
    (dat0 (F := Ideal) V c).flushed 2 t
      = ((cfg0.win 2).blk t).view.read (Elt Ideal) (Cert.Gcn.lin (V c main_arg0) (V c main_arg2)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  funext j
  revert j
  show ∀ j : S2000x128.Idx, k0_pay1 (F := Ideal) (iblk0 V c 0 t) (iblk0 V c 1 t) j
      = Cert.Gcn.lin (V c main_arg0) (V c main_arg2) (((cfg0.win 2).blk t).view.emb j)
  intro j
  obtain ⟨p, q, rfl⟩ : ∃ (p : Fin 2000) (q : Fin 128), j = ix2 p q := ⟨j 0, j 1, eq_ix2 j⟩
  have ht : t.val < 50 := lt_of_lt_of_eq t.isLt N_0
  have hp : p.val < 2000 := p.isLt
  rw [blk2_emb t p q ⟨2000 * t.val + p.val, by omega⟩ rfl]
  refine ((pay_apply _ _ p q).trans ?_).trans (lin_apply (V c main_arg0) (V c main_arg2) ⟨2000 * t.val + p.val, by omega⟩ q).symm
  refine Finset.sum_congr rfl fun k _ => ?_
  rw [blk0_apply V c t p k ⟨2000 * t.val + p.val, by omega⟩ rfl, blk1_apply V c t k q]

/-- An index of the output array is in point t's block iff each coordinate is in the block's range on its axis. -/
theorem mem_blk (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v30).slice (win0_2.rect t)).set ↔ _
  rw [View.set_slice_whole, Rect.mem_set_unit]
  exact Iff.rfl

/-- Every index of the output array is in some point's block: row r is in the block of point r / 2000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 2000 ≤ (i 0).val ∧ (i 0).val < win0_2.index t (0 : Fin 2) * 2000 + 2000
    rw [e4, ht]; omega
  | ⟨1, _⟩ =>
    show win0_2.index t (1 : Fin 2) * 128 ≤ (i 1).val ∧ (i 1).val < win0_2.index t (1 : Fin 2) * 128 + 128
    rw [e5]; omega

/-- THE OUTPUT ARRAY after the region: the dense layer of the input matrix and the weight matrix as the region
    finds them, at every index. -/
theorem arr (V : (c : Dev nD) → (b : Ref sig .tc) → Buf (Elt Ideal) ((c : Thread nD τ).loc b)) (c : Dev nD) :
    (Cert.KernelIdeal.Gen.dat0 (F := Ideal) V c).arrAt 2 cfg0.N = Cert.Gcn.lin (V c main_arg0) (V c main_arg2) :=
  (dat0 (F := Ideal) V c).arrAt_eq_of_cover 2 (Cert.Gcn.lin (V c main_arg0) (V c main_arg2))
    (fun t _ => flushed_eq V c t) cover

end Cert.KernelIdeal.Lin0

end
-- ==== Proof.RegionBn1.lean ====
/-
  The first normalisation of the network, read off the tiled kernel as one whole-array function.

  The kernel visits 50 grid points.  At point t it holds rows 2000·t … 2000·t + 1999 of the aggregated matrix z
  (a [2000,128] block) and five one-row parameter matrices whole — bias b, scale g, shift be, mean mu, variance v —
  and writes a [2000,128] block of the output at the same rows.  Every operation of the body is pointwise once each
  parameter row is repeated down the 2000 rows, so on the extended reals entry (p, q) of the written block is
      max (g q * ((z (2000·t + p, q) + b q) - mu q) * rsqrt (v q + eps) + be q) 0,
  the operations in exactly this order.  That is entry (2000·t + p, q) of the specification's `bn`, so each written
  block is the restriction of ONE function of the whole arrays to the block's rows; the 50 blocks tile the 100000
  rows (row r lies in block r / 2000), hence the output array ends holding that function everywhere, whatever the
  arrays at the region's entry are.
-/
import proofs.«114808_j31499290149338_1_alg».proof.Proof.Gen.KernelIdeal.Frame
import proofs.«114808_j31499290149338_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Bn1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

/-- The zero offsets of a whole-buffer access, as a constant function. -/
theorem hz : (![0, 0] : Fin 2 → Nat) = fun _ => 0 := funext fun a => by fin_cases a <;> rfl

/-- The body's arithmetic at one entry: the row block at (p, q) and the five one-row parameter blocks at column q. -/
theorem pay_apply (x0 : Vec Ideal S2000x128 .f32) (x1 x2 x3 x4 x5 : Vec Ideal S1x128 .f32) (p : Fin 2000) (q : Fin 128) :
    k1_pay1 x0 x1 x2 x3 x4 x5 (ix2 p q)
      = max (x2 (ix2 0 q) * (x0 (ix2 p q) + x1 (ix2 0 q) - x4 (ix2 0 q)) * Ideal.rsqrt (x5 (ix2 0 q) + Cert.Gcn.eps)
          + x3 (ix2 0 q)) Cert.Gcn.zero := by
  have b1 := broadcastTo_1b_ab_apply x1 broadcasts_S1x128_S2000x128 p q
  have b2 := broadcastTo_1b_ab_apply x2 broadcasts_S1x128_S2000x128 p q
  have b3 := broadcastTo_1b_ab_apply x3 broadcasts_S1x128_S2000x128 p q
  have b4 := broadcastTo_1b_ab_apply x4 broadcasts_S1x128_S2000x128 p q
  have b5 := broadcastTo_1b_ab_apply x5 broadcasts_S1x128_S2000x128 p q
  unfold k1_pay1
  simp only [shapeCast_self]
  show max (broadcastTo S2000x128 x2 broadcasts_S1x128_S2000x128 (ix2 p q)
        * (x0 (ix2 p q) + broadcastTo S2000x128 x1 broadcasts_S1x128_S2000x128 (ix2 p q)
            - broadcastTo S2000x128 x4 broadcasts_S1x128_S2000x128 (ix2 p q))
        * Ideal.rsqrt (broadcastTo S2000x128 x5 broadcasts_S1x128_S2000x128 (ix2 p q) + Cert.Gcn.eps)
        + broadcastTo S2000x128 x3 broadcasts_S1x128_S2000x128 (ix2 p q)) Cert.Gcn.zero = _
  rw [b1, b2, b3, b4, b5]

/-- The printed index maps, decided once over the fifty points: the row-tile windows sit at tile (t, 0), the parameter
    windows at (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Every row tile is some point's. -/
theorem idx_onto : ∀ q0 : Fin 50, ∃ t : Fin cfg1.N, win1_6.index t = ![q0.val, 0] :=
  (by decide +kernel : ∀ q0 : Fin 50, ∃ t : Fin grid1.N, win1_6.index t = ![q0.val, 0])

variable (V : (c : Dev nD) → (b : Ref sig .tc) → Buf (Elt Ideal) ((c : Thread nD τ).loc b))

/-! ## Each input block read where the output tile says

A block's coordinate in its array is always tile index × tile size + 1 × the coordinate inside the tile. -/

/-- The row block's entry (p, q) is the array's entry under the output tile's (p, q). -/
theorem blk0_read (c : Dev nD) (t : Fin cfg1.N) (p : Fin 2000) (q : Fin 128) :
    (iblk1 V c 0 t : Vec Ideal S2000x128 .f32) (ix2 p q)
      = V c main_v42 (((cfg1.win 6).blk t).view.emb (ix2 p q)) := by
  obtain ⟨e00, e01, e10, e11, e20, e21, e30, e31, e40, e41, e50, e51, e60, e61⟩ := idx_facts t
  show V c main_v42 (((cfg1.win 0).blk t).view.emb (ix2 p q)) = V c main_v42 (((cfg1.win 6).blk t).view.emb (ix2 p q))
  refine congrArg _ (funext fun a => Fin.ext ?_)
  match a with
  | ⟨0, _⟩ => show win1_0.index t (0 : Fin 2) * 2000 + 1 * p.val = win1_6.index t (0 : Fin 2) * 2000 + 1 * p.val; omega
  | ⟨1, _⟩ => show win1_0.index t (1 : Fin 2) * 128 + 1 * q.val = win1_6.index t (1 : Fin 2) * 128 + 1 * q.val; omega

/-! A parameter block's entry (0, q) is the one-row array's entry at the output entry's column: bias, scale, shift,
    mean, variance in turn. -/

theorem blk1_read (c : Dev nD) (t : Fin cfg1.N) (p : Fin 2000) (q : Fin 128) :
    (iblk1 V c 1 t : Vec Ideal S1x128 .f32) (ix2 0 q)
      = V c main_v43 (ix2 0 ((((cfg1.win 6).blk t).view.emb (ix2 p q)) 1)) := by
  obtain ⟨e00, e01, e10, e11, e20, e21, e30, e31, e40, e41, e50, e51, e60, e61⟩ := idx_facts t
  show V c main_v43 (((cfg1.win 1).blk t).view.emb (ix2 0 q)) = _
  refine congrArg _ (funext fun a => Fin.ext ?_)
  match a with
  | ⟨0, _⟩ => show win1_1.index t (0 : Fin 2) * 1 + 1 * 0 = 0; omega
  | ⟨1, _⟩ => show win1_1.index t (1 : Fin 2) * 128 + 1 * q.val = win1_6.index t (1 : Fin 2) * 128 + 1 * q.val; omega

theorem blk2_read (c : Dev nD) (t : Fin cfg1.N) (p : Fin 2000) (q : Fin 128) :
    (iblk1 V c 2 t : Vec Ideal S1x128 .f32) (ix2 0 q)
      = V c main_v44 (ix2 0 ((((cfg1.win 6).blk t).view.emb (ix2 p q)) 1)) := by
  obtain ⟨e00, e01, e10, e11, e20, e21, e30, e31, e40, e41, e50, e51, e60, e61⟩ := idx_facts t
  show V c main_v44 (((cfg1.win 2).blk t).view.emb (ix2 0 q)) = _
  refine congrArg _ (funext fun a => Fin.ext ?_)
  match a with
  | ⟨0, _⟩ => show win1_2.index t (0 : Fin 2) * 1 + 1 * 0 = 0; omega
  | ⟨1, _⟩ => show win1_2.index t (1 : Fin 2) * 128 + 1 * q.val = win1_6.index t (1 : Fin 2) * 128 + 1 * q.val; omega

theorem blk3_read (c : Dev nD) (t : Fin cfg1.N) (p : Fin 2000) (q : Fin 128) :
    (iblk1 V c 3 t : Vec Ideal S1x128 .f32) (ix2 0 q)
      = V c main_v45 (ix2 0 ((((cfg1.win 6).blk t).view.emb (ix2 p q)) 1)) := by
  obtain ⟨e00, e01, e10, e11, e20, e21, e30, e31, e40, e41, e50, e51, e60, e61⟩ := idx_facts t
  show V c main_v45 (((cfg1.win 3).blk t).view.emb (ix2 0 q)) = _
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * q.val = win1_6.index t (1 : Fin 2) * 128 + 1 * q.val; omega

theorem blk4_read (c : Dev nD) (t : Fin cfg1.N) (p : Fin 2000) (q : Fin 128) :
    (iblk1 V c 4 t : Vec Ideal S1x128 .f32) (ix2 0 q)
      = V c main_v46 (ix2 0 ((((cfg1.win 6).blk t).view.emb (ix2 p q)) 1)) := by
  obtain ⟨e00, e01, e10, e11, e20, e21, e30, e31, e40, e41, e50, e51, e60, e61⟩ := idx_facts t
  show V c main_v46 (((cfg1.win 4).blk t).view.emb (ix2 0 q)) = _
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * q.val = win1_6.index t (1 : Fin 2) * 128 + 1 * q.val; omega

theorem blk5_read (c : Dev nD) (t : Fin cfg1.N) (p : Fin 2000) (q : Fin 128) :
    (iblk1 V c 5 t : Vec Ideal S1x128 .f32) (ix2 0 q)
      = V c main_v47 (ix2 0 ((((cfg1.win 6).blk t).view.emb (ix2 p q)) 1)) := by
  obtain ⟨e00, e01, e10, e11, e20, e21, e30, e31, e40, e41, e50, e51, e60, e61⟩ := idx_facts t
  show V c main_v47 (((cfg1.win 5).blk t).view.emb (ix2 0 q)) = _
  refine congrArg _ (funext fun a => Fin.ext ?_)
  match a with
  | ⟨0, _⟩ => show win1_5.index t (0 : Fin 2) * 1 + 1 * 0 = 0; omega
  | ⟨1, _⟩ => show win1_5.index t (1 : Fin 2) * 128 + 1 * q.val = win1_6.index t (1 : Fin 2) * 128 + 1 * q.val; omega

/-- What point t writes back is tile t of the whole-array function. -/
theorem flushed_eq (c : Dev nD) (t : Fin cfg1.N) :
    (dat1 (F := Ideal) V c).flushed 6 t = ((cfg1.win 6).blk t).view.read (Elt Ideal)
      (Cert.Gcn.bn (V c main_v42) (V c main_v43) (V c main_v44) (V c main_v45) (V c main_v46) (V c main_v47)) := by
  show (cfg1.win 6).cut (grid1.coords t) ((dat1 (F := Ideal) V c).after 6 t) = _
  rw [after1_6]
  unfold out1_6
  rw [View.canon_unit_zero hz]
  simp only [View.ld_unit_zero (S := S2000x128) hz, View.ld_unit_zero (S := S1x128) hz]
  funext j
  obtain ⟨p, q, rfl⟩ : ∃ (p : Fin 2000) (q : Fin 128), j = ix2 p q := ⟨j 0, j 1, eq_ix2 j⟩
  refine (pay_apply _ _ _ _ _ _ p q).trans ?_
  rw [blk0_read V c t p q, blk1_read V c t p q, blk2_read V c t p q, blk3_read V c t p q, blk4_read V c t p q,
    blk5_read V c t p q]
  rfl

/-! ## From tiles to the array -/

/-- An index of the array is in point t's tile iff each coordinate is in the tile's range on its axis. -/
theorem mem_blk (t : Fin cfg1.N) (i : S100000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v48).slice (win1_6.rect t)).set ↔ _
  rw [View.set_slice_whole, Rect.mem_set_unit]
  exact Iff.rfl

/-- Every entry of the array is in some point's tile: row r lies in tile r / 2000, and the fifty tiles of 2000 rows
    fill the 100000 rows. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ := idx_onto ⟨(i 0).val / 2000, by omega⟩
  have q0 : win1_6.index t (0 : Fin 2) = (i 0).val / 2000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- The output array after the region: bias, normalisation by the fixed statistics and positive part of the input
    array, entry by entry. -/
theorem arr (V : (c : Dev nD) → (b : Ref sig .tc) → Buf (Elt Ideal) ((c : Thread nD τ).loc b)) (c : Dev nD) :
    (Cert.KernelIdeal.Gen.dat1 (F := Ideal) V c).arrAt 6 cfg1.N
      = Cert.Gcn.bn (V c main_v42) (V c main_v43) (V c main_v44) (V c main_v45) (V c main_v46) (V c main_v47) :=
  (dat1 (F := Ideal) V c).arrAt_eq_of_cover 6
    (Cert.Gcn.bn (V c main_v42) (V c main_v43) (V c main_v44) (V c main_v45) (V c main_v46) (V c main_v47))
    (fun t _ => flushed_eq V c t) cover

end Cert.KernelIdeal.Bn1

end
-- ==== Proof.RegionLin2.lean ====
/-
  The second dense layer of the network, read off the tiled kernel as one whole-array function.

  The kernel visits 50 grid points.  At point t it holds rows 2000·t … 2000·t + 1999 of the hidden matrix x
  (a [2000,128] block of what the first layer leaves after its normalisation and positive part), the whole
  [128,128] weight matrix w of the second layer, and writes a [2000,128] block of the output at the same rows.
  The block it writes is the matrix product of the two blocks it holds, accumulated from zero; on the extended
  reals the change of float format before the product is the identity (and the reshape to the same shape before
  it moves nothing), so entry (p, q) of the block is the sum over k of x (2000·t + p, k) * w (k, q).  That is
  entry (2000·t + p, q) of the dense layer of the specification, so each written block is the restriction of
  ONE function of the whole arrays to the block's rows; the 50 blocks tile the 100000 rows (row r lies in block
  r / 2000), hence the output array ends holding that function everywhere.
-/
import proofs.«114808_j31499290149338_1_alg».proof.Proof.Gen.KernelIdeal.Frame
import proofs.«114808_j31499290149338_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Lin2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

/-- The zero offset of a whole-buffer access, as the constant function. -/
theorem hz : (![0, 0] : Fin 2 → Nat) = fun _ => 0 := funext fun a => by fin_cases a <;> rfl

/-! ## The block product at an index -/

/-- The dimension numbers of the block product: the left operand's axis 1 is contracted with the right operand's axis 0. -/
abbrev DD : DotDims S2000x128 S128x128 S2000x128 := dot_S2000x128_S128x128_S2000x128_1_0_0_1_n_n

/-- The left operand is read at the output's row … -/
theorem lhs_0 (i : S2000x128.Idx) (q : DD.contr.Idx) : (DD.lhsIdx i q 0).val = (i 0).val := by
  unfold DotDims.lhsIdx
  rw [dif_neg (show ¬(0 : Fin S2000x128.rank) ∈ DD.lhsBatch by decide), dif_pos (show (0 : Fin S2000x128.rank) ∈ DD.lhsNonContracting by decide)]
  rfl
/-- … and at the contraction position's column. -/
theorem lhs_1 (i : S2000x128.Idx) (q : DD.contr.Idx) : (DD.lhsIdx i q 1).val = (q ⟨0, by decide⟩).val :=
  DD.lhsIdx_val_of_single rfl i q
/-- The right operand is read at the contraction position's row … -/
theorem rhs_0 (i : S2000x128.Idx) (q : DD.contr.Idx) : (DD.rhsIdx i q 0).val = (q ⟨0, by decide⟩).val :=
  DD.rhsIdx_val_of_single rfl i q
/-- … and at the output's column. -/
theorem rhs_1 (i : S2000x128.Idx) (q : DD.contr.Idx) : (DD.rhsIdx i q 1).val = (i 1).val := by
  unfold DotDims.rhsIdx
  rw [dif_neg (show ¬(1 : Fin S128x128.rank) ∈ DD.rhsBatch by decide), dif_pos (show (1 : Fin S128x128.rank) ∈ DD.rhsNonContracting by decide)]
  rfl

/-- Entry (p, q) of what the body stores: row p of the first block against column q of the second, summed over the
    128 contracted positions (the product starts from the zero accumulator, and rounding to the narrower float
    format is the identity on the extended reals, as is the reshape to the same shape before it). -/
theorem pay_apply (x0 : Vec Ideal S2000x128 .f32) (x1 : Vec Ideal S128x128 .f32) (p : Fin 2000) (q : Fin 128) :
    k2_pay1 (F := Ideal) x0 x1 (ix2 p q) = ∑ k : Fin 128, x0 (ix2 p k) * x1 (ix2 k q) := by
  unfold k2_pay1
  refine (Ideal.matmul_constant_zero_apply DD none _ _ (ix2 p q)).trans ?_
  rw [← Equiv.sum_comp (contrEquiv1 DD 128 rfl rfl).symm]
  refine Finset.sum_congr rfl fun k _ => ?_
  have hk := contrEquiv1_symm_val DD 128 rfl rfl k
  have el : DD.lhsIdx (ix2 p q) ((contrEquiv1 DD 128 rfl rfl).symm k) = ix2 p k := funext fun a => Fin.ext (by
    match a with
    | ⟨0, _⟩ => exact lhs_0 _ _
    | ⟨1, _⟩ => exact (lhs_1 _ _).trans hk)
  have er : DD.rhsIdx (ix2 p q) ((contrEquiv1 DD 128 rfl rfl).symm k) = ix2 k q := funext fun a => Fin.ext (by
    match a with
    | ⟨0, _⟩ => exact (rhs_0 _ _).trans hk
    | ⟨1, _⟩ => exact rhs_1 _ _)
  rw [el, er]
  show (shapeCast S2000x128 x0 shapeCasts_S2000x128_S2000x128) (ix2 p k) * x1 (ix2 k q) = x0 (ix2 p k) * x1 (ix2 k q)
  rw [shapeCast_self]

/-- The dense layer of the specification at row r and column q. -/
theorem lin_apply (x : FVec Ideal S100000x128 .f32) (w : FVec Ideal S128x128 .f32) (r : Fin 100000) (q : Fin 128) :
    Cert.Gcn.lin x w (ix2 r q) = ∑ k : Fin 128, x (ix2 r k) * w (ix2 k q) := rfl

/-! ## From blocks to the array -/

variable (V : (c : Dev nD) → (b : Ref sig .tc) → Buf (Elt Ideal) ((c : Thread nD τ).loc b))

/-- The printed index maps, decided once over the grid: at point t the input rows' and the output rows' windows sit at
    block (t, 0), the weight matrix's window at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, k) of the input block at point t is entry (2000·t + p, k) of the input matrix. -/
theorem blk0_apply (c : Dev nD) (t : Fin cfg2.N) (p : Fin 2000) (k : Fin 128) (r : Fin 100000)
    (hr : r.val = 2000 * t.val + p.val) :
    (iblk2 (F := Ideal) V c 0 t : Vec Ideal S2000x128 .f32) (ix2 p k) = (V c main_v48 : FVec Ideal S100000x128 .f32) (ix2 r k) := by
  obtain ⟨e0, e1, -, -, -, -⟩ := idx_facts t
  unfold iblk2
  rw [View.read_apply]
  show V c main_v48 (((cfg2.win 0).blk t).view.emb (ix2 p k)) = V c main_v48 (ix2 r k)
  refine congrArg _ ?_
  funext a
  apply Fin.ext
  match a with
  | ⟨0, _⟩ => show win2_0.index t (0 : Fin 2) * 2000 + 1 * p.val = r.val; rw [e0, hr]; omega
  | ⟨1, _⟩ => show win2_0.index t (1 : Fin 2) * 128 + 1 * k.val = k.val; rw [e1]; omega

/-- The weight block at every point is the whole weight matrix. -/
theorem blk1_apply (c : Dev nD) (t : Fin cfg2.N) (k : Fin 128) (q : Fin 128) :
    (iblk2 (F := Ideal) V c 1 t : Vec Ideal S128x128 .f32) (ix2 k q) = (V c main_arg8 : FVec Ideal S128x128 .f32) (ix2 k q) := by
  obtain ⟨-, -, e2, e3, -, -⟩ := idx_facts t
  unfold iblk2
  rw [View.read_apply]
  show V c main_arg8 (((cfg2.win 1).blk t).view.emb (ix2 k q)) = V c main_arg8 (ix2 k q)
  refine congrArg _ ?_
  funext a
  apply Fin.ext
  match a with
  | ⟨0, _⟩ => show win2_1.index t (0 : Fin 2) * 128 + 1 * k.val = k.val; rw [e2]; omega
  | ⟨1, _⟩ => show win2_1.index t (1 : Fin 2) * 128 + 1 * q.val = q.val; rw [e3]; omega

/-- Entry (p, q) of the output block at point t sits at (2000·t + p, q) in the output array. -/
theorem blk2_emb (t : Fin cfg2.N) (p : Fin 2000) (q : Fin 128) (r : Fin 100000)
    (hr : r.val = 2000 * t.val + p.val) :
    (((cfg2.win 2).blk t).view.emb (ix2 p q) : S100000x128.Idx) = ix2 r q := by
  obtain ⟨-, -, -, -, e4, e5⟩ := idx_facts t
  funext a
  apply Fin.ext
  match a with
  | ⟨0, _⟩ => show win2_2.index t (0 : Fin 2) * 2000 + 1 * p.val = r.val; rw [e4, hr]; omega
  | ⟨1, _⟩ => show win2_2.index t (1 : Fin 2) * 128 + 1 * q.val = q.val; rw [e5]; omega

/-- WHAT POINT t WRITES BACK is block t of the dense layer of the arrays as the region finds them. -/
theorem flushed_eq (c : Dev nD) (t : Fin cfg2.N) :
    (dat2 (F := Ideal) V c).flushed 2 t
      = ((cfg2.win 2).blk t).view.read (Elt Ideal) (Cert.Gcn.lin (V c main_v48) (V c main_arg8)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x128) hz]
  funext j
  revert j
  show ∀ j : S2000x128.Idx, k2_pay1 (F := Ideal) (iblk2 V c 0 t) (iblk2 V c 1 t) j
      = Cert.Gcn.lin (V c main_v48) (V c main_arg8) (((cfg2.win 2).blk t).view.emb j)
  intro j
  obtain ⟨p, q, rfl⟩ : ∃ (p : Fin 2000) (q : Fin 128), j = ix2 p q := ⟨j 0, j 1, eq_ix2 j⟩
  have ht : t.val < 50 := lt_of_lt_of_eq t.isLt N_2
  have hp : p.val < 2000 := p.isLt
  rw [blk2_emb t p q ⟨2000 * t.val + p.val, by omega⟩ rfl]
  refine ((pay_apply _ _ p q).trans ?_).trans (lin_apply (V c main_v48) (V c main_arg8) ⟨2000 * t.val + p.val, by omega⟩ q).symm
  refine Finset.sum_congr rfl fun k _ => ?_
  rw [blk0_apply V c t p k ⟨2000 * t.val + p.val, by omega⟩ rfl, blk1_apply V c t k q]

/-- An index of the output array is in point t's block iff each coordinate is in the block's range on its axis. -/
theorem mem_blk (t : Fin cfg2.N) (i : S100000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole main_v49).slice (win2_2.rect t)).set ↔ _
  rw [View.set_slice_whole, Rect.mem_set_unit]
  exact Iff.rfl

/-- Every index of the output array is in some point's block: row r is in the block of point r / 2000. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 50 := N_2
  obtain ⟨t, ht⟩ : ∃ t : Fin cfg2.N, t.val = (i 0).val / 2000 := ⟨⟨(i 0).val / 2000, by rw [hN]; omega⟩, rfl⟩
  obtain ⟨-, -, -, -, e4, e5⟩ := idx_facts t
  refine ⟨t, flush2_2 t, ?_⟩
  rw [mem_blk]
  intro a
  match a with
  | ⟨0, _⟩ =>
    show win2_2.index t (0 : Fin 2) * 2000 ≤ (i 0).val ∧ (i 0).val < win2_2.index t (0 : Fin 2) * 2000 + 2000
    rw [e4, ht]; omega
  | ⟨1, _⟩ =>
    show win2_2.index t (1 : Fin 2) * 128 ≤ (i 1).val ∧ (i 1).val < win2_2.index t (1 : Fin 2) * 128 + 128
    rw [e5]; omega

/-- THE OUTPUT ARRAY after the region: the dense layer of the input matrix and the weight matrix as the region
    finds them, at every index. -/
theorem arr (V : (c : Dev nD) → (b : Ref sig .tc) → Buf (Elt Ideal) ((c : Thread nD τ).loc b)) (c : Dev nD) :
    (Cert.KernelIdeal.Gen.dat2 (F := Ideal) V c).arrAt 2 cfg2.N = Cert.Gcn.lin (V c main_v48) (V c main_arg8) :=
  (dat2 (F := Ideal) V c).arrAt_eq_of_cover 2 (Cert.Gcn.lin (V c main_v48) (V c main_arg8))
    (fun t _ => flushed_eq V c t) cover

end Cert.KernelIdeal.Lin2

end
-- ==== Proof.RegionBn3.lean ====
/-
  The second normalisation of the network, read off the tiled kernel as one whole-array function.

  The kernel visits 50 grid points.  At point t it holds rows 2000·t … 2000·t + 1999 of the aggregated matrix z
  (a [2000,128] block) and five one-row parameter matrices whole — bias b, scale g, shift be, mean mu, variance v —
  and writes a [2000,128] block of the output at the same rows.  Every operation of the body is pointwise once each
  parameter row is repeated down the 2000 rows, so on the extended reals entry (p, q) of the written block is
      max (g q * ((z (2000·t + p, q) + b q) - mu q) * rsqrt (v q + eps) + be q) 0,
  the operations in exactly this order.  That is entry (2000·t + p, q) of the specification's `bn`, so each written
  block is the restriction of ONE function of the whole arrays to the block's rows; the 50 blocks tile the 100000
  rows (row r lies in block r / 2000), hence the output array ends holding that function everywhere, whatever the
  arrays at the region's entry are.
-/
import proofs.«114808_j31499290149338_1_alg».proof.Proof.Gen.KernelIdeal.Frame
import proofs.«114808_j31499290149338_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Bn3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

/-- The zero offsets of a whole-buffer access, as a constant function. -/
theorem hz : (![0, 0] : Fin 2 → Nat) = fun _ => 0 := funext fun a => by fin_cases a <;> rfl

/-- The body's arithmetic at one entry: the row block at (p, q) and the five one-row parameter blocks at column q. -/
theorem pay_apply (x0 : Vec Ideal S2000x128 .f32) (x1 x2 x3 x4 x5 : Vec Ideal S1x128 .f32) (p : Fin 2000) (q : Fin 128) :
    k3_pay1 x0 x1 x2 x3 x4 x5 (ix2 p q)
      = max (x2 (ix2 0 q) * (x0 (ix2 p q) + x1 (ix2 0 q) - x4 (ix2 0 q)) * Ideal.rsqrt (x5 (ix2 0 q) + Cert.Gcn.eps)
          + x3 (ix2 0 q)) Cert.Gcn.zero := by
  have b1 := broadcastTo_1b_ab_apply x1 broadcasts_S1x128_S2000x128 p q
  have b2 := broadcastTo_1b_ab_apply x2 broadcasts_S1x128_S2000x128 p q
  have b3 := broadcastTo_1b_ab_apply x3 broadcasts_S1x128_S2000x128 p q
  have b4 := broadcastTo_1b_ab_apply x4 broadcasts_S1x128_S2000x128 p q
  have b5 := broadcastTo_1b_ab_apply x5 broadcasts_S1x128_S2000x128 p q
  unfold k3_pay1
  simp only [shapeCast_self]
  show max (broadcastTo S2000x128 x2 broadcasts_S1x128_S2000x128 (ix2 p q)
        * (x0 (ix2 p q) + broadcastTo S2000x128 x1 broadcasts_S1x128_S2000x128 (ix2 p q)
            - broadcastTo S2000x128 x4 broadcasts_S1x128_S2000x128 (ix2 p q))
        * Ideal.rsqrt (broadcastTo S2000x128 x5 broadcasts_S1x128_S2000x128 (ix2 p q) + Cert.Gcn.eps)
        + broadcastTo S2000x128 x3 broadcasts_S1x128_S2000x128 (ix2 p q)) Cert.Gcn.zero = _
  rw [b1, b2, b3, b4, b5]

/-- The printed index maps, decided once over the fifty points: the row-tile windows sit at tile (t, 0), the parameter
    windows at (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Every row tile is some point's. -/
theorem idx_onto : ∀ q0 : Fin 50, ∃ t : Fin cfg3.N, win3_6.index t = ![q0.val, 0] :=
  (by decide +kernel : ∀ q0 : Fin 50, ∃ t : Fin grid3.N, win3_6.index t = ![q0.val, 0])

variable (V : (c : Dev nD) → (b : Ref sig .tc) → Buf (Elt Ideal) ((c : Thread nD τ).loc b))

/-! ## Each input block read where the output tile says

A block's coordinate in its array is always tile index × tile size + 1 × the coordinate inside the tile. -/

/-- The row block's entry (p, q) is the array's entry under the output tile's (p, q). -/
theorem blk0_read (c : Dev nD) (t : Fin cfg3.N) (p : Fin 2000) (q : Fin 128) :
    (iblk3 V c 0 t : Vec Ideal S2000x128 .f32) (ix2 p q)
      = V c main_v61 (((cfg3.win 6).blk t).view.emb (ix2 p q)) := by
  obtain ⟨e00, e01, e10, e11, e20, e21, e30, e31, e40, e41, e50, e51, e60, e61⟩ := idx_facts t
  show V c main_v61 (((cfg3.win 0).blk t).view.emb (ix2 p q)) = V c main_v61 (((cfg3.win 6).blk t).view.emb (ix2 p q))
  refine congrArg _ (funext fun a => Fin.ext ?_)
  match a with
  | ⟨0, _⟩ => show win3_0.index t (0 : Fin 2) * 2000 + 1 * p.val = win3_6.index t (0 : Fin 2) * 2000 + 1 * p.val; omega
  | ⟨1, _⟩ => show win3_0.index t (1 : Fin 2) * 128 + 1 * q.val = win3_6.index t (1 : Fin 2) * 128 + 1 * q.val; omega

/-! A parameter block's entry (0, q) is the one-row array's entry at the output entry's column: bias, scale, shift,
    mean, variance in turn. -/

theorem blk1_read (c : Dev nD) (t : Fin cfg3.N) (p : Fin 2000) (q : Fin 128) :
    (iblk3 V c 1 t : Vec Ideal S1x128 .f32) (ix2 0 q)
      = V c main_v62 (ix2 0 ((((cfg3.win 6).blk t).view.emb (ix2 p q)) 1)) := by
  obtain ⟨e00, e01, e10, e11, e20, e21, e30, e31, e40, e41, e50, e51, e60, e61⟩ := idx_facts t
  show V c main_v62 (((cfg3.win 1).blk t).view.emb (ix2 0 q)) = _
  refine congrArg _ (funext fun a => Fin.ext ?_)
  match a with
  | ⟨0, _⟩ => show win3_1.index t (0 : Fin 2) * 1 + 1 * 0 = 0; omega
  | ⟨1, _⟩ => show win3_1.index t (1 : Fin 2) * 128 + 1 * q.val = win3_6.index t (1 : Fin 2) * 128 + 1 * q.val; omega

theorem blk2_read (c : Dev nD) (t : Fin cfg3.N) (p : Fin 2000) (q : Fin 128) :
    (iblk3 V c 2 t : Vec Ideal S1x128 .f32) (ix2 0 q)
      = V c main_v63 (ix2 0 ((((cfg3.win 6).blk t).view.emb (ix2 p q)) 1)) := by
  obtain ⟨e00, e01, e10, e11, e20, e21, e30, e31, e40, e41, e50, e51, e60, e61⟩ := idx_facts t
  show V c main_v63 (((cfg3.win 2).blk t).view.emb (ix2 0 q)) = _
  refine congrArg _ (funext fun a => Fin.ext ?_)
  match a with
  | ⟨0, _⟩ => show win3_2.index t (0 : Fin 2) * 1 + 1 * 0 = 0; omega
  | ⟨1, _⟩ => show win3_2.index t (1 : Fin 2) * 128 + 1 * q.val = win3_6.index t (1 : Fin 2) * 128 + 1 * q.val; omega

theorem blk3_read (c : Dev nD) (t : Fin cfg3.N) (p : Fin 2000) (q : Fin 128) :
    (iblk3 V c 3 t : Vec Ideal S1x128 .f32) (ix2 0 q)
      = V c main_v64 (ix2 0 ((((cfg3.win 6).blk t).view.emb (ix2 p q)) 1)) := by
  obtain ⟨e00, e01, e10, e11, e20, e21, e30, e31, e40, e41, e50, e51, e60, e61⟩ := idx_facts t
  show V c main_v64 (((cfg3.win 3).blk t).view.emb (ix2 0 q)) = _
  refine congrArg _ (funext fun a => Fin.ext ?_)
  match a with
  | ⟨0, _⟩ => show win3_3.index t (0 : Fin 2) * 1 + 1 * 0 = 0; omega
  | ⟨1, _⟩ => show win3_3.index t (1 : Fin 2) * 128 + 1 * q.val = win3_6.index t (1 : Fin 2) * 128 + 1 * q.val; omega

theorem blk4_read (c : Dev nD) (t : Fin cfg3.N) (p : Fin 2000) (q : Fin 128) :
    (iblk3 V c 4 t : Vec Ideal S1x128 .f32) (ix2 0 q)
      = V c main_v65 (ix2 0 ((((cfg3.win 6).blk t).view.emb (ix2 p q)) 1)) := by
  obtain ⟨e00, e01, e10, e11, e20, e21, e30, e31, e40, e41, e50, e51, e60, e61⟩ := idx_facts t
  show V c main_v65 (((cfg3.win 4).blk t).view.emb (ix2 0 q)) = _
  refine congrArg _ (funext fun a => Fin.ext ?_)
  match a with
  | ⟨0, _⟩ => show win3_4.index t (0 : Fin 2) * 1 + 1 * 0 = 0; omega
  | ⟨1, _⟩ => show win3_4.index t (1 : Fin 2) * 128 + 1 * q.val = win3_6.index t (1 : Fin 2) * 128 + 1 * q.val; omega

theorem blk5_read (c : Dev nD) (t : Fin cfg3.N) (p : Fin 2000) (q : Fin 128) :
    (iblk3 V c 5 t : Vec Ideal S1x128 .f32) (ix2 0 q)
      = V c main_v66 (ix2 0 ((((cfg3.win 6).blk t).view.emb (ix2 p q)) 1)) := by
  obtain ⟨e00, e01, e10, e11, e20, e21, e30, e31, e40, e41, e50, e51, e60, e61⟩ := idx_facts t
  show V c main_v66 (((cfg3.win 5).blk t).view.emb (ix2 0 q)) = _
  refine congrArg _ (funext fun a => Fin.ext ?_)
  match a with
  | ⟨0, _⟩ => show win3_5.index t (0 : Fin 2) * 1 + 1 * 0 = 0; omega
  | ⟨1, _⟩ => show win3_5.index t (1 : Fin 2) * 128 + 1 * q.val = win3_6.index t (1 : Fin 2) * 128 + 1 * q.val; omega

/-- What point t writes back is tile t of the whole-array function. -/
theorem flushed_eq (c : Dev nD) (t : Fin cfg3.N) :
    (dat3 (F := Ideal) V c).flushed 6 t = ((cfg3.win 6).blk t).view.read (Elt Ideal)
      (Cert.Gcn.bn (V c main_v61) (V c main_v62) (V c main_v63) (V c main_v64) (V c main_v65) (V c main_v66)) := by
  show (cfg3.win 6).cut (grid3.coords t) ((dat3 (F := Ideal) V c).after 6 t) = _
  rw [after3_6]
  unfold out3_6
  rw [View.canon_unit_zero hz]
  simp only [View.ld_unit_zero (S := S2000x128) hz, View.ld_unit_zero (S := S1x128) hz]
  funext j
  obtain ⟨p, q, rfl⟩ : ∃ (p : Fin 2000) (q : Fin 128), j = ix2 p q := ⟨j 0, j 1, eq_ix2 j⟩
  refine (pay_apply _ _ _ _ _ _ p q).trans ?_
  rw [blk0_read V c t p q, blk1_read V c t p q, blk2_read V c t p q, blk3_read V c t p q, blk4_read V c t p q,
    blk5_read V c t p q]
  rfl

/-! ## From tiles to the array -/

/-- An index of the array is in point t's tile iff each coordinate is in the tile's range on its axis. -/
theorem mem_blk (t : Fin cfg3.N) (i : S100000x128.Idx) :
    i ∈ ((cfg3.win 6).blk t).view.set ↔ ∀ a : Fin 2, win3_6.index t a * S2000x128.size a ≤ (i a).val
      ∧ (i a).val < win3_6.index t a * S2000x128.size a + S2000x128.size a := by
  show i ∈ ((View.whole main_v67).slice (win3_6.rect t)).set ↔ _
  rw [View.set_slice_whole, Rect.mem_set_unit]
  exact Iff.rfl

/-- Every entry of the array is in some point's tile: row r lies in tile r / 2000, and the fifty tiles of 2000 rows
    fill the 100000 rows. -/
theorem cover (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  obtain ⟨t, ht⟩ := idx_onto ⟨(i 0).val / 2000, by omega⟩
  have q0 : win3_6.index t (0 : Fin 2) = (i 0).val / 2000 := congrFun ht 0
  have q1 : win3_6.index t (1 : Fin 2) = 0 := congrFun ht 1
  refine ⟨t, flush3_6 t, ?_⟩
  rw [mem_blk]
  intro a
  match a with
  | ⟨0, _⟩ => show win3_6.index t (0 : Fin 2) * 2000 ≤ (i 0).val ∧ (i 0).val < win3_6.index t (0 : Fin 2) * 2000 + 2000; omega
  | ⟨1, _⟩ => show win3_6.index t (1 : Fin 2) * 128 ≤ (i 1).val ∧ (i 1).val < win3_6.index t (1 : Fin 2) * 128 + 128; omega

/-- The output array after the region: bias, normalisation by the fixed statistics and positive part of the input
    array, entry by entry. -/
theorem arr (V : (c : Dev nD) → (b : Ref sig .tc) → Buf (Elt Ideal) ((c : Thread nD τ).loc b)) (c : Dev nD) :
    (Cert.KernelIdeal.Gen.dat3 (F := Ideal) V c).arrAt 6 cfg3.N
      = Cert.Gcn.bn (V c main_v61) (V c main_v62) (V c main_v63) (V c main_v64) (V c main_v65) (V c main_v66) :=
  (dat3 (F := Ideal) V c).arrAt_eq_of_cover 6
    (Cert.Gcn.bn (V c main_v61) (V c main_v62) (V c main_v63) (V c main_v64) (V c main_v65) (V c main_v66))
    (fun t _ => flushed_eq V c t) cover

end Cert.KernelIdeal.Bn3

end
-- ==== Proof.RegionHead4.lean ====
/-
  The classifier head's region, read as one array.  Its grid has fifty points; point t stages rows 2000 t … 2000 t + 1999
  of the hidden features together with the two weight matrices and the two bias rows whole, and writes back rows
  2000 t … 2000 t + 1999 of the one output column.  On the extended reals the body's arithmetic at row p is

      (sum over k of max ((sum over l of h (p, l) * w1 (l, k)) + c1 k) 0 * w2 (k, 0)) + c2,

  the two products into zero accumulators being plain sums over the 128 contraction positions and the narrowing of
  their operands the identity.  Each staged block is its array read at block index times block size plus the
  coordinate inside the block, so what point t writes back is block t of the head of the arrays the region finds;
  the fifty blocks tile the 100000 rows (row r lies in the block of point r / 2000), hence the output array after the
  region is that head, whatever the arrays at the region's entry are.
-/
import proofs.«114808_j31499290149338_1_alg».proof.Proof.Gen.KernelIdeal.Frame
import proofs.«114808_j31499290149338_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Head4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

/-- The left operand's row coordinate at an output index is the output's row. -/
theorem lhsA_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column coordinate is the contraction position. -/
theorem lhsA_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row coordinate is the contraction position. -/
theorem rhsA_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand's column coordinate at an output index is the output's column. -/
theorem rhsA_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A [2000,128] by [128,128] product into the zero accumulator, read at (p, q): the sum over the 128 contraction
    positions of the row's entry times the column's. -/
theorem matmulA_apply (y : FVec Ideal S2000x128 .bf16) (w : FVec Ideal S128x128 .bf16) (p : Fin 2000) (q : Fin 128) :
    matmul dot_S2000x128_S128x128_S2000x128_1_0_0_1_n_n none y w (constant (F := Ideal) S2000x128 .f32 0x00000000#32) (ix2 p q)
      = ∑ k : Fin 128, y (ix2 p k) * w (ix2 k q) := by
  refine (Ideal.matmul_constant_zero_apply dot_S2000x128_S128x128_S2000x128_1_0_0_1_n_n none y w (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-- The left operand's row coordinate at an output index is the output's row. -/
theorem lhsB_0 (i : S2000x1.Idx) (q : dot_S2000x128_S128x1_S2000x1_1_0_0_1_n_n.contr.Idx) :
    (dot_S2000x128_S128x1_S2000x1_1_0_0_1_n_n.lhsIdx i q 0).val = (i 0).val := by
  unfold DotDims.lhsIdx
  rw [dif_neg (show ¬(0 : Fin S2000x128.rank) ∈ dot_S2000x128_S128x1_S2000x1_1_0_0_1_n_n.lhsBatch by decide), dif_pos (show (0 : Fin S2000x128.rank) ∈ dot_S2000x128_S128x1_S2000x1_1_0_0_1_n_n.lhsNonContracting by decide)]
  rfl
/-- The left operand's column coordinate is the contraction position. -/
theorem lhsB_1 (i : S2000x1.Idx) (q : dot_S2000x128_S128x1_S2000x1_1_0_0_1_n_n.contr.Idx) :
    (dot_S2000x128_S128x1_S2000x1_1_0_0_1_n_n.lhsIdx i q 1).val = (q ⟨0, by decide⟩).val :=
  dot_S2000x128_S128x1_S2000x1_1_0_0_1_n_n.lhsIdx_val_of_single rfl i q
/-- The right operand's row coordinate is the contraction position. -/
theorem rhsB_0 (i : S2000x1.Idx) (q : dot_S2000x128_S128x1_S2000x1_1_0_0_1_n_n.contr.Idx) :
    (dot_S2000x128_S128x1_S2000x1_1_0_0_1_n_n.rhsIdx i q 0).val = (q ⟨0, by decide⟩).val :=
  dot_S2000x128_S128x1_S2000x1_1_0_0_1_n_n.rhsIdx_val_of_single rfl i q
/-- The right operand's column coordinate at an output index is the output's column. -/
theorem rhsB_1 (i : S2000x1.Idx) (q : dot_S2000x128_S128x1_S2000x1_1_0_0_1_n_n.contr.Idx) :
    (dot_S2000x128_S128x1_S2000x1_1_0_0_1_n_n.rhsIdx i q 1).val = (i 1).val := by
  unfold DotDims.rhsIdx
  rw [dif_neg (show ¬(1 : Fin S128x1.rank) ∈ dot_S2000x128_S128x1_S2000x1_1_0_0_1_n_n.rhsBatch by decide), dif_pos (show (1 : Fin S128x1.rank) ∈ dot_S2000x128_S128x1_S2000x1_1_0_0_1_n_n.rhsNonContracting by decide)]
  rfl

/-- A [2000,128] by [128,1] product into the zero accumulator, read at (p, q): the sum over the 128 contraction
    positions of the row's entry times the column's. -/
theorem matmulB_apply (y : FVec Ideal S2000x128 .bf16) (w : FVec Ideal S128x1 .bf16) (p : Fin 2000) (q : Fin 1) :
    matmul dot_S2000x128_S128x1_S2000x1_1_0_0_1_n_n none y w (constant (F := Ideal) S2000x1 .f32 0x00000000#32) (ix2 p q)
      = ∑ k : Fin 128, y (ix2 p k) * w (ix2 k q) := by
  refine (Ideal.matmul_constant_zero_apply dot_S2000x128_S128x1_S2000x1_1_0_0_1_n_n none y w (ix2 p q)).trans ?_
  rw [← Equiv.sum_comp (ValueIdx.contrEquiv1 dot_S2000x128_S128x1_S2000x1_1_0_0_1_n_n 128 rfl rfl).symm]
  refine Finset.sum_congr rfl fun k _ => ?_
  have hk := ValueIdx.contrEquiv1_symm_val dot_S2000x128_S128x1_S2000x1_1_0_0_1_n_n 128 rfl rfl k
  have el : dot_S2000x128_S128x1_S2000x1_1_0_0_1_n_n.lhsIdx (ix2 p q) ((ValueIdx.contrEquiv1 dot_S2000x128_S128x1_S2000x1_1_0_0_1_n_n 128 rfl rfl).symm k) = ix2 p k := funext fun a => Fin.ext (by
    match a with
    | ⟨0, _⟩ => exact lhsB_0 _ _
    | ⟨1, _⟩ => exact (lhsB_1 _ _).trans hk)
  have er : dot_S2000x128_S128x1_S2000x1_1_0_0_1_n_n.rhsIdx (ix2 p q) ((ValueIdx.contrEquiv1 dot_S2000x128_S128x1_S2000x1_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-- The body's arithmetic at row `p` of its one output column: the first dense layer's row against each of the 128
    columns of the first weight, the bias row added, the positive part taken, then that row of 128 against the one
    column of the second weight, the last bias added. -/
theorem pay_apply (x0 : Vec Ideal S2000x128 .f32) (x1 : Vec Ideal S128x128 .f32) (x2 : Vec Ideal S1x128 .f32)
    (x3 : Vec Ideal S128x1 .f32) (x4 : Vec Ideal S1x1 .f32) (p : Fin 2000) :
    k4_pay1 (F := Ideal) x0 x1 x2 x3 x4 (ix2 p (0 : Fin 1))
      = (∑ k : Fin 128, max ((∑ l : Fin 128, x0 (ix2 p l) * x1 (ix2 l k)) + x2 (ix2 (0 : Fin 1) k)) Cert.Gcn.zero * x3 (ix2 k (0 : Fin 1)))
          + x4 (ix2 (0 : Fin 1) (0 : Fin 1)) := by
  unfold k4_pay1
  simp only [shapeCast_self]
  refine (addf_apply _ _ _).trans ?_
  refine congrArg₂ (· + ·) ?_ ?_
  · refine (matmulB_apply _ _ p 0).trans ?_
    refine Finset.sum_congr rfl fun k _ => ?_
    refine congrArg₂ (· * ·) ?_ rfl
    refine (truncf_apply (ψ := .bf16) _ bitsLt_bf16_f32 _).trans ((maximumf_apply _ _ _).trans ?_)
    refine congrArg₂ max ((addf_apply _ _ _).trans (congrArg₂ (· + ·) ?_ ?_)) rfl
    · exact matmulA_apply _ _ p k
    · exact broadcastTo_1b_ab_apply x2 _ p k
  · exact broadcastTo_1b_ab_apply x4 _ p 0

/-! ## The windows' index maps, decided over the fifty grid points -/

theorem hz : (![0, 0] : Fin 2 → Nat) = fun _ => 0 := funext fun a => by fin_cases a <;> rfl

/-- The row-tile windows (the input rows, the output column) sit at block (t, 0); the four parameter windows at
    block (0, 0) at every point. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-! ## Each input window's block, read off its array -/

/-- Rows: entry (p, l) of the block at point `t` is entry (2000 t + p, l) of the array. -/
theorem blk0_apply (V : (c : Dev nD) → (b : Ref sig .tc) → Buf (Elt Ideal) ((c : Thread nD τ).loc b)) (c : Dev nD) (t : Fin cfg4.N)
    (p : Fin 2000) (l : Fin 128) (r : Fin 100000) (hr : r.val = t.val * 2000 + p.val) :
    (iblk4 (F := Ideal) V c 0 t : Vec Ideal S2000x128 .f32) (ix2 p l) = (V c main_v67 : S100000x128.Idx → EReal) (ix2 r l) := by
  obtain ⟨e0, e1, -⟩ := idx_facts t
  unfold iblk4
  show V c main_v67 (((cfg4.win 0).blk t).view.emb (ix2 p l)) = V c main_v67 (ix2 r l)
  refine congrArg (V c main_v67) (funext fun a => Fin.ext ?_)
  match a with
  | ⟨0, _⟩ => show win4_0.index t (0 : Fin 2) * 2000 + 1 * p.val = r.val; rw [e0, hr]; omega
  | ⟨1, _⟩ => show win4_0.index t (1 : Fin 2) * 128 + 1 * l.val = l.val; rw [e1]; omega

/-- The first weight's window is the whole matrix at every point. -/
theorem blk1_apply (V : (c : Dev nD) → (b : Ref sig .tc) → Buf (Elt Ideal) ((c : Thread nD τ).loc b)) (c : Dev nD) (t : Fin cfg4.N) (a0 : Fin 128) (a1 : Fin 128) :
    (iblk4 (F := Ideal) V c 1 t : Vec Ideal S128x128 .f32) (ix2 a0 a1) = (V c main_arg14 : S128x128.Idx → EReal) (ix2 a0 a1) := by
  obtain ⟨-, -, e0, e1, -⟩ := idx_facts t
  unfold iblk4
  show V c main_arg14 (((cfg4.win 1).blk t).view.emb (ix2 a0 a1)) = V c main_arg14 (ix2 a0 a1)
  refine congrArg (V c main_arg14) (funext fun a => Fin.ext ?_)
  match a with
  | ⟨0, _⟩ => show win4_1.index t (0 : Fin 2) * 128 + 1 * a0.val = a0.val; rw [e0]; omega
  | ⟨1, _⟩ => show win4_1.index t (1 : Fin 2) * 128 + 1 * a1.val = a1.val; rw [e1]; omega

/-- The first bias row's window is the whole row at every point. -/
theorem blk2_apply (V : (c : Dev nD) → (b : Ref sig .tc) → Buf (Elt Ideal) ((c : Thread nD τ).loc b)) (c : Dev nD) (t : Fin cfg4.N) (a0 : Fin 1) (a1 : Fin 128) :
    (iblk4 (F := Ideal) V c 2 t : Vec Ideal S1x128 .f32) (ix2 a0 a1) = (V c main_v68 : S1x128.Idx → EReal) (ix2 a0 a1) := by
  obtain ⟨-, -, -, -, e0, e1, -⟩ := idx_facts t
  unfold iblk4
  show V c main_v68 (((cfg4.win 2).blk t).view.emb (ix2 a0 a1)) = V c main_v68 (ix2 a0 a1)
  refine congrArg (V c main_v68) (funext fun a => Fin.ext ?_)
  match a with
  | ⟨0, _⟩ => show win4_2.index t (0 : Fin 2) * 1 + 1 * a0.val = a0.val; rw [e0]; omega
  | ⟨1, _⟩ => show win4_2.index t (1 : Fin 2) * 128 + 1 * a1.val = a1.val; rw [e1]; omega

/-- The second weight's window is the whole column at every point. -/
theorem blk3_apply (V : (c : Dev nD) → (b : Ref sig .tc) → Buf (Elt Ideal) ((c : Thread nD τ).loc b)) (c : Dev nD) (t : Fin cfg4.N) (a0 : Fin 128) (a1 : Fin 1) :
    (iblk4 (F := Ideal) V c 3 t : Vec Ideal S128x1 .f32) (ix2 a0 a1) = (V c main_arg16 : S128x1.Idx → EReal) (ix2 a0 a1) := by
  obtain ⟨-, -, -, -, -, -, e0, e1, -⟩ := idx_facts t
  unfold iblk4
  show V c main_arg16 (((cfg4.win 3).blk t).view.emb (ix2 a0 a1)) = V c main_arg16 (ix2 a0 a1)
  refine congrArg (V c main_arg16) (funext fun a => Fin.ext ?_)
  match a with
  | ⟨0, _⟩ => show win4_3.index t (0 : Fin 2) * 128 + 1 * a0.val = a0.val; rw [e0]; omega
  | ⟨1, _⟩ => show win4_3.index t (1 : Fin 2) * 1 + 1 * a1.val = a1.val; rw [e1]; omega

/-- The last bias's window is its one entry at every point. -/
theorem blk4_apply (V : (c : Dev nD) → (b : Ref sig .tc) → Buf (Elt Ideal) ((c : Thread nD τ).loc b)) (c : Dev nD) (t : Fin cfg4.N) (a0 : Fin 1) (a1 : Fin 1) :
    (iblk4 (F := Ideal) V c 4 t : Vec Ideal S1x1 .f32) (ix2 a0 a1) = (V c main_v69 : S1x1.Idx → EReal) (ix2 a0 a1) := by
  obtain ⟨-, -, -, -, -, -, -, -, e0, e1, -⟩ := idx_facts t
  unfold iblk4
  show V c main_v69 (((cfg4.win 4).blk t).view.emb (ix2 a0 a1)) = V c main_v69 (ix2 a0 a1)
  refine congrArg (V c main_v69) (funext fun a => Fin.ext ?_)
  match a with
  | ⟨0, _⟩ => show win4_4.index t (0 : Fin 2) * 1 + 1 * a0.val = a0.val; rw [e0]; omega
  | ⟨1, _⟩ => show win4_4.index t (1 : Fin 2) * 1 + 1 * a1.val = a1.val; rw [e1]; omega

/-! ## What a point writes back, and the whole array -/

/-- WHAT POINT `t` WRITES BACK is block `t` of the head of the arrays as the region finds them: row `p` of the block
    is row 2000 t + p of the network's output column. -/
theorem flushed_eq (V : (c : Dev nD) → (b : Ref sig .tc) → Buf (Elt Ideal) ((c : Thread nD τ).loc b)) (c : Dev nD) (t : Fin cfg4.N) :
    (dat4 (F := Ideal) V c).flushed 5 t
      = ((cfg4.win 5).blk t).view.read (Elt Ideal) (Cert.Gcn.head (V c main_v67) (V c main_arg14) (V c main_v68) (V c main_arg16) (V c main_v69)) := by
  show (cfg4.win 5).cut (grid4.coords t) ((dat4 V c).after 5 t) = _
  rw [after4_5]
  unfold out4_5
  rw [View.canon_unit_zero hz]
  simp only [View.ld_unit_zero (S := S2000x128) hz, View.ld_unit_zero (S := S128x128) hz, View.ld_unit_zero (S := S1x128) hz,
    View.ld_unit_zero (S := S128x1) hz, View.ld_unit_zero (S := S1x1) hz]
  refine funext fun (j : S2000x1.Idx) => ?_
  obtain ⟨p, q, rfl⟩ : ∃ (p : Fin 2000) (q : Fin 1), j = ix2 p q := ⟨j 0, j 1, eq_ix2 j⟩
  obtain rfl : q = 0 := Subsingleton.elim _ _
  obtain ⟨-, -, -, -, -, -, -, -, -, -, e0, e1⟩ := idx_facts t
  have ht : t.val < 50 := lt_of_lt_of_eq t.isLt N_4
  have hp : p.val < 2000 := p.isLt
  have hemb : ((cfg4.win 5).blk t).view.emb (ix2 p (0 : Fin 1)) = ix2 (⟨t.val * 2000 + p.val, by omega⟩ : Fin 100000) (0 : Fin 1) :=
    funext fun a => Fin.ext (by
      match a with
      | ⟨0, _⟩ => show win4_5.index t (0 : Fin 2) * 2000 + 1 * p.val = t.val * 2000 + p.val; rw [e0]; omega
      | ⟨1, _⟩ => show win4_5.index t (1 : Fin 2) * 1 + 1 * 0 = 0; rw [e1])
  show k4_pay1 (F := Ideal) (iblk4 V c 0 t) (iblk4 V c 1 t) (iblk4 V c 2 t) (iblk4 V c 3 t) (iblk4 V c 4 t) (ix2 p (0 : Fin 1))
    = Cert.Gcn.head (V c main_v67) (V c main_arg14) (V c main_v68) (V c main_arg16) (V c main_v69) (((cfg4.win 5).blk t).view.emb (ix2 p (0 : Fin 1)))
  rw [hemb]
  refine (pay_apply _ _ _ _ _ p).trans ?_
  unfold Cert.Gcn.head
  exact congrArg₂ (· + ·) (Finset.sum_congr rfl fun k _ => congrArg₂ (· * ·) (congrArg₂ max (congrArg₂ (· + ·)
    (Finset.sum_congr rfl fun l _ => congrArg₂ (· * ·) (blk0_apply V c t p l _ rfl) (blk1_apply V c t l k))
    (blk2_apply V c t 0 k)) rfl) (blk3_apply V c t k 0)) (blk4_apply V c t 0 0)

/-- An index of the output column is in point `t`'s block iff each coordinate is in the block's range on its axis. -/
theorem mem_blk (t : Fin cfg4.N) (i : S100000x1.Idx) :
    i ∈ ((cfg4.win 5).blk t).view.set ↔ ∀ a : Fin 2, win4_5.index t a * S2000x1.size a ≤ (i a).val ∧ (i a).val < win4_5.index t a * S2000x1.size a + S2000x1.size a := by
  show i ∈ ((View.whole main_v70).slice (win4_5.rect t)).set ↔ _
  rw [View.set_slice_whole, Rect.mem_set_unit]
  exact Iff.rfl

/-- The fifty blocks of 2000 rows tile the 100000 rows: row `r` is in the block of point `r / 2000`. -/
theorem cover (i : S100000x1.Idx) : ∃ t : Fin cfg4.N, (cfg4.win 5).flush t = true ∧ i ∈ ((cfg4.win 5).blk t).view.set := by
  have hi0 : (i 0).val < 100000 := (i 0).isLt
  have hi1 : (i 1).val < 1 := (i 1).isLt
  obtain ⟨t, ht⟩ : ∃ t : Fin cfg4.N, t.val = (i 0).val / 2000 :=
    ⟨⟨(i 0).val / 2000, lt_of_lt_of_eq (by omega : (i 0).val / 2000 < 50) N_4.symm⟩, rfl⟩
  obtain ⟨-, -, -, -, -, -, -, -, -, -, e0, e1⟩ := idx_facts t
  refine ⟨t, flush4_5 t, ?_⟩
  rw [mem_blk]
  intro a
  match a with
  | ⟨0, _⟩ =>
    show win4_5.index t (0 : Fin 2) * 2000 ≤ (i 0).val ∧ (i 0).val < win4_5.index t (0 : Fin 2) * 2000 + 2000
    rw [e0, ht]; omega
  | ⟨1, _⟩ =>
    show win4_5.index t (1 : Fin 2) * 1 ≤ (i 1).val ∧ (i 1).val < win4_5.index t (1 : Fin 2) * 1 + 1
    rw [e1]; omega

/-- THE OUTPUT ARRAY after the region: the network's head of the arrays the region finds, whatever they are. -/
theorem arr (V : (c : Dev nD) → (b : Ref sig .tc) → Buf (Elt Ideal) ((c : Thread nD τ).loc b)) (c : Dev nD) :
    (Cert.KernelIdeal.Gen.dat4 (F := Ideal) V c).arrAt 5 cfg4.N
      = Cert.Gcn.head (V c main_v67) (V c main_arg14) (V c main_v68) (V c main_arg16) (V c main_v69) :=
  (dat4 (F := Ideal) V c).arrAt_eq_of_cover 5 (Cert.Gcn.head (V c main_v67) (V c main_arg14) (V c main_v68) (V c main_arg16) (V c main_v69))
    (fun t _ => flushed_eq V c t) cover

end Cert.KernelIdeal.Head4

end
-- ==== Proof.RefStages.lean ====
/-
  The reference program's result, cut into the stages of the graph-convolution network.

  The reference's composed term is one tree of host operations.  Four pieces of it recur: a dense layer (`linR`), the
  bias / normalisation / positive-part block (`bnR`), the aggregation over the edges of the graph (`aggR`) and the
  classifier head (`headR`).  `res_eq` says that the reference's term IS the composition of these pieces (the two sides
  are the same tree, so the proof is by unfolding), and `linR_eq`, `bnR_eq`, `headR_eq` read the three arithmetic
  pieces index by index on the extended reals: a dense layer is a sum over the 128 contracted coordinates, a parameter
  vector broadcast to a one-row matrix and then down the 100000 rows is read at its column, and the two float constants
  stay the binary words both programs carry.
-/
import proofs.«114808_j31499290149338_1_alg».proof.Proof.Gen.ReferenceIdeal.Read
import proofs.«114808_j31499290149338_1_alg».proof.Proof.Spec

noncomputable section

namespace Cert.ReferenceIdeal.Stages

open Cert.ReferenceIdeal Cert.ReferenceIdeal.Gen Idealize.ShloMosaic Idealize.ShloMosaic.TcCoe Idealize.SL.Sem Idealize.ShloMosaic.StableHlo
open Idealize.ShloMosaic.ValueIdx

/-- A vector of 128 parameters as a one-row matrix. -/
abbrev row (y : FVec Ideal S128 .f32) : FVec Ideal S1x128 .f32 :=
  broadcastInDim S1x128 ![1] bcast_S128_S1x128_1 y
/-- A one-row matrix repeated down the 100000 rows. -/
abbrev rows (y : FVec Ideal S1x128 .f32) : FVec Ideal S100000x128 .f32 :=
  broadcastInDim S100000x128 ![0, 1] bcast_S1x128_S100000x128_0_1 y
/-- The all-zero matrix the positive part compares with (and the aggregation starts from). -/
abbrev zeros : FVec Ideal S100000x128 .f32 :=
  broadcastInDim S100000x128 ![] bcast_S_S100000x128 (constant (F := Ideal) S_ .f32 0x00000000#32)

/-- A dense layer. -/
def linR (x : FVec Ideal S100000x128 .f32) (w : FVec Ideal S128x128 .f32) : FVec Ideal S100000x128 .f32 :=
  Host.dotGeneral dot_S100000x128_S128x128_S100000x128_1_0_0_1_n_n none x w

/-- Bias, normalisation by fixed statistics, positive part. -/
def bnR (z : FVec Ideal S100000x128 .f32) (b g be mu v : FVec Ideal S128 .f32) : FVec Ideal S100000x128 .f32 :=
  maximumf (addf (mulf (mulf (rows (row g)) (subf (addf z (rows (row b))) (rows (row mu)))) (rows (row (Host.rsqrt (addf v (broadcastInDim S128 ![] bcast_S_S128 (constant (F := Ideal) S_ .f32 0x3727C5AC#32))))))) (rows (row be))) zeros

/-- The classifier head: a dense layer, a bias, the positive part, a dense layer with one output column, a bias. -/
def headR (h : FVec Ideal S100000x128 .f32) (w1 : FVec Ideal S128x128 .f32) (c1 : FVec Ideal S128 .f32)
    (w2 : FVec Ideal S128x1 .f32) (c2 : FVec Ideal S1 .f32) : FVec Ideal S100000x1 .f32 :=
  addf (Host.dotGeneral dot_S100000x128_S128x1_S100000x1_1_0_0_1_n_n none (maximumf (addf (linR h w1) (rows (row c1))) zeros) w2) (broadcastInDim S100000x1 ![0, 1] bcast_S1x1_S100000x1_0_1 (broadcastInDim S1x1 ![1] bcast_S1_S1x1_1 c2))

/-- The aggregation over the edges: every edge (and one self-loop per node) carries its source row of `hw`, scaled by
    the product of the inverse square roots of its two end points' degrees, into its destination row.  The edge array
    `e` holds the sources in its first row and the destinations in its second. -/
def aggR (e : (⟨S2x1600000, .i32⟩ : BufTy).Contents (Elt Ideal)) (hw : FVec Ideal S100000x128 .f32) : FVec Ideal S100000x128 .f32 :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (mulf (Host.gather gather_S100000x128_S1700000x1_S1700000x128_1_0_n_n_0_1_1128 hw (broadcastInDim S1700000x1 ![0] bcast_S1700000_S1700000x1_0 (select (cmpi .slt (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0)))) (broadcastInDim S1700000x128 ![0, 1] bcast_S1700000x1_S1700000x128_0_1 (broadcastInDim S1700000x1 ![0] bcast_S1700000_S1700000x1_0 (mulf (Host.gather gather_S100000_S1700000x1_S1700000_n_0_n_n_0_1_1 (Host.rsqrt (maximumf (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x3F800000#32)))) (broadcastInDim S1700000x1 ![0] bcast_S1700000_S1700000x1_0 (select (cmpi .slt (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0)))) (Host.gather gather_S100000_S1700000x1_S1700000_n_0_n_n_0_1_1 (Host.rsqrt (maximumf (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x3F800000#32)))) (broadcastInDim S1700000x1 ![0] bcast_S1700000_S1700000x1_0 (select (cmpi .slt (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0))))))))

set_option maxRecDepth 8192 in
/-- The reference's result is the head of the second block of the aggregated second layer of the first block of the
    aggregated first layer: the same tree, read off by unfolding. -/
theorem res_eq (m : (ℓ : Loc nD τ sig) → Buf (Elt Ideal) ℓ) (c : Dev nD) :
    Cert.ReferenceIdeal.Value.res_main_v102 (F := Ideal) m c
      = headR (bnR (aggR (m ((c.tc : Thread nD τ).loc main_arg1)) (linR (bnR (aggR (m ((c.tc : Thread nD τ).loc main_arg1)) (linR (m ((c.tc : Thread nD τ).loc main_arg0)) (m ((c.tc : Thread nD τ).loc main_arg2)))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)))) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (m ((c.tc : Thread nD τ).loc main_arg14)) (m ((c.tc : Thread nD τ).loc main_arg15)) (m ((c.tc : Thread nD τ).loc main_arg16)) (m ((c.tc : Thread nD τ).loc main_arg17)) := by
  unfold Cert.ReferenceIdeal.Value.res_main_v102 headR bnR aggR linR
  rfl

/-! ## The broadcasts, read at an index -/

/-- A parameter vector as a one-row matrix, read at column `q`. -/
theorem row_apply (y : FVec Ideal S128 .f32) (q : Fin 128) : row y (ix2 0 q) = y (ix1 q) :=
  broadcastInDim_apply _ bcast_S128_S1x128_1 y (ix2 0 q) (ix1 q) (fun a => match a with
    | ⟨0, _⟩ => by show q.val = if (128 : Nat) = 1 then 0 else q.val; rw [if_neg (by decide)])

/-- A one-row matrix repeated down the rows, read at `(p, q)`: the row at column `q`. -/
theorem rows_apply (y : FVec Ideal S1x128 .f32) (p : Fin 100000) (q : Fin 128) : rows y (ix2 p q) = y (ix2 0 q) :=
  broadcastInDim_apply _ bcast_S1x128_S100000x128_0_1 y (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The all-zero matrix reads the zero word everywhere. -/
theorem zeros_apply (i : S100000x128.Idx) : zeros i = Cert.Gcn.zero := rfl

/-- The inverse square root of the variance plus the small constant, read at column `q`. -/
theorem rsqrt_apply (v : FVec Ideal S128 .f32) (q : Fin 128) :
    Host.rsqrt (F := Ideal) (addf v (broadcastInDim S128 ![] bcast_S_S128 (constant (F := Ideal) S_ .f32 0x3727C5AC#32))) (ix1 q)
      = Ideal.rsqrt (v (ix1 q) + Cert.Gcn.eps) := rfl

/-- The head's scalar bias, as a one-by-one matrix repeated down the rows, read at row `p`. -/
theorem bias_apply (y : FVec Ideal S1x1 .f32) (p : Fin 100000) :
    broadcastInDim S100000x1 ![0, 1] bcast_S1x1_S100000x1_0_1 y (ix2 p 0) = y (ix2 0 0) :=
  broadcastInDim_apply _ bcast_S1x1_S100000x1_0_1 y (ix2 p 0) (ix2 0 0) (fun a => match a with
    | ⟨0, _⟩ => by show 0 = if (1 : Nat) = 1 then 0 else p.val; rw [if_pos rfl]
    | ⟨1, _⟩ => by show 0 = if (1 : Nat) = 1 then 0 else (0 : Fin 1).val; rw [if_pos rfl])

/-! ## The dense layers, read at an index -/

/-- A dense layer at `(p, q)`: the sum over the 128 contracted coordinates. -/
theorem linR_apply (x : FVec Ideal S100000x128 .f32) (w : FVec Ideal S128x128 .f32) (p : Fin 100000) (q : Fin 128) :
    linR x w (ix2 p q) = ∑ k : Fin 128, x (ix2 p k) * w (ix2 k q) := by
  show Read.val_main_v30 (F := Ideal) x w (ix2 p q) = _
  rw [Read.val_main_v30_apply]
  refine Finset.sum_congr rfl fun k _ => ?_
  have el : Read.lidx_main_v30 (ix2 p q) k = ix2 p k :=
    funext fun a => by match a with | ⟨0, _⟩ => rfl | ⟨1, _⟩ => rfl
  have er : Read.ridx_main_v30 (ix2 p q) k = ix2 k q :=
    funext fun a => by match a with | ⟨0, _⟩ => rfl | ⟨1, _⟩ => rfl
  rw [el, er]

/-- The dense layer with one output column at row `p`: the sum over the 128 contracted coordinates. -/
theorem dotCol_apply (y : FVec Ideal S100000x128 .f32) (w : FVec Ideal S128x1 .f32) (p : Fin 100000) :
    Host.dotGeneral dot_S100000x128_S128x1_S100000x1_1_0_0_1_n_n none y w (ix2 p 0)
      = ∑ k : Fin 128, y (ix2 p k) * w (ix2 k 0) := by
  simp only [Host.dotGeneral]
  rw [Ideal.dotGeneral_apply, ← Equiv.sum_comp (ValueIdx.contrEquiv1 dot_S100000x128_S128x1_S100000x1_1_0_0_1_n_n 128 rfl rfl).symm]
  refine Finset.sum_congr rfl fun k _ => ?_
  have hk := ValueIdx.contrEquiv1_symm_val dot_S100000x128_S128x1_S100000x1_1_0_0_1_n_n 128 rfl rfl k
  have el : dot_S100000x128_S128x1_S100000x1_1_0_0_1_n_n.lhsIdx (ix2 p 0) ((ValueIdx.contrEquiv1 dot_S100000x128_S128x1_S100000x1_1_0_0_1_n_n 128 rfl rfl).symm k) = ix2 p k := funext fun a => Fin.ext (by
    match a with
    | ⟨0, _⟩ => exact Read.lhs_main_v99_0 _ _
    | ⟨1, _⟩ => exact (Read.lhs_main_v99_1 _ _).trans hk)
  have er : dot_S100000x128_S128x1_S100000x1_1_0_0_1_n_n.rhsIdx (ix2 p 0) ((ValueIdx.contrEquiv1 dot_S100000x128_S128x1_S100000x1_1_0_0_1_n_n 128 rfl rfl).symm k) = ix2 k 0 := funext fun a => Fin.ext (by
    match a with
    | ⟨0, _⟩ => exact (Read.rhs_main_v99_0 _ _).trans hk
    | ⟨1, _⟩ => exact Read.rhs_main_v99_1 _ _)
  rw [el, er]

/-! ## The three arithmetic stages are the specification's -/

theorem linR_eq (x : FVec Ideal S100000x128 .f32) (w : FVec Ideal S128x128 .f32) : linR x w = Cert.Gcn.lin x w := by
  funext i
  obtain ⟨p, q, rfl⟩ : ∃ (p : Fin 100000) (q : Fin 128), i = ix2 p q := ⟨i 0, i 1, eq_ix2 i⟩
  rw [linR_apply]
  rfl

theorem bnR_eq (z : FVec Ideal S100000x128 .f32) (b g be mu v : FVec Ideal S128 .f32) :
    bnR z b g be mu v = Cert.Gcn.bn z (row b) (row g) (row be) (row mu) (row v) := by
  funext i
  obtain ⟨p, q, rfl⟩ : ∃ (p : Fin 100000) (q : Fin 128), i = ix2 p q := ⟨i 0, i 1, eq_ix2 i⟩
  show max (rows (row g) (ix2 p q) * (z (ix2 p q) + rows (row b) (ix2 p q) - rows (row mu) (ix2 p q))
        * rows (row (Host.rsqrt (F := Ideal) (addf v (broadcastInDim S128 ![] bcast_S_S128 (constant (F := Ideal) S_ .f32 0x3727C5AC#32))))) (ix2 p q)
        + rows (row be) (ix2 p q)) (zeros (ix2 p q))
      = max (row g (ix2 0 q) * (z (ix2 p q) + row b (ix2 0 q) - row mu (ix2 0 q)) * Ideal.rsqrt (row v (ix2 0 q) + Cert.Gcn.eps)
        + row be (ix2 0 q)) Cert.Gcn.zero
  rw [rows_apply (row g), rows_apply (row b), rows_apply (row mu), rows_apply (row be), rows_apply (row (Host.rsqrt (F := Ideal) _)),
    zeros_apply, row_apply (Host.rsqrt (F := Ideal) _), rsqrt_apply, row_apply v]

theorem headR_eq (h : FVec Ideal S100000x128 .f32) (w1 : FVec Ideal S128x128 .f32) (c1 : FVec Ideal S128 .f32)
    (w2 : FVec Ideal S128x1 .f32) (c2 : FVec Ideal S1 .f32) :
    headR h w1 c1 w2 c2 = Cert.Gcn.head h w1 (row c1) w2 (broadcastInDim S1x1 ![1] bcast_S1_S1x1_1 c2) := by
  funext i
  obtain ⟨p, r, rfl⟩ : ∃ (p : Fin 100000) (r : Fin 1), i = ix2 p r := ⟨i 0, i 1, eq_ix2 i⟩
  obtain rfl : r = 0 := Subsingleton.elim _ _
  show Host.dotGeneral dot_S100000x128_S128x1_S100000x1_1_0_0_1_n_n none (maximumf (addf (linR h w1) (rows (row c1))) zeros) w2 (ix2 p 0)
        + broadcastInDim S100000x1 ![0, 1] bcast_S1x1_S100000x1_0_1 (broadcastInDim S1x1 ![1] bcast_S1_S1x1_1 c2) (ix2 p 0)
      = (∑ k : Fin 128, max ((∑ l : Fin 128, h (ix2 p l) * w1 (ix2 l k)) + row c1 (ix2 0 k)) Cert.Gcn.zero * w2 (ix2 k 0))
        + (broadcastInDim S1x1 ![1] bcast_S1_S1x1_1 c2) (ix2 0 0)
  rw [dotCol_apply, bias_apply]
  refine congrArg (· + _) (Finset.sum_congr rfl fun k _ => ?_)
  show max (linR h w1 (ix2 p k) + rows (row c1) (ix2 p k)) (zeros (ix2 p k)) * w2 (ix2 k 0) = _
  rw [linR_apply, rows_apply, zeros_apply]

end Cert.ReferenceIdeal.Stages

end
-- ==== Proof.LibStackedRow.lean ====
/-
  Reading layout operations at an index: row `l` of a stacked parameter array (a unit-stride slice
  `[l : l+1, s : s+B, 0 : C]` of a `[L, A, C]` array, reshaped to `[B, C]`), a vector reshaped to a one-row
  matrix, and a concatenation of two matrices along either axis.
-/
import Idealize.ShloMosaic.Lib.Pipeline.Value
import Idealize.ShloMosaic.Lib.ValueIdx

noncomputable section

namespace Cert.Layout

open Idealize.ShloMosaic Idealize.ShloMosaic.ValueIdx

variable {α : Type}

/-- Rows `s … s+B-1` of layer `l` of a stacked `[L, A, C]` array, as a `[B, C]` matrix: entry `(q, k)` is the
    stacked array's entry `(l, s + q, k)`. -/
theorem stacked_rows {L A B C : Nat} (x : (⟨3, ![L, A, C]⟩ : Shape).Idx → α) (l s : Nat)
    (h : (⟨3, ![L, A, C]⟩ : Shape).Slices ![l, s, 0] ⟨3, ![1, B, C]⟩)
    (h' : (⟨3, ![1, B, C]⟩ : Shape).ShapeCasts ⟨2, ![B, C]⟩)
    (q : Fin B) (k : Fin C) (hl : l < L) (hq : s + q.val < A) :
    shapeCast (⟨2, ![B, C]⟩ : Shape) (extractStridedSlice (⟨3, ![1, B, C]⟩ : Shape) ![l, s, 0] x h) h' (ix2 q k)
      = x (ix3 ⟨l, hl⟩ ⟨s + q.val, hq⟩ k) := by
  refine (shapeCast_apply _ h' (ix2 q k) (ix3 (0 : Fin 1) q k) ?_).trans ?_
  · rw [Shape.rowMajor_val_three, Shape.rowMajor_val_two]
    show (0 * B + q.val) * C + k.val = q.val * C + k.val
    rw [Nat.zero_mul, Nat.zero_add]
  · exact extractStridedSlice_apply _ x h (ix3 (0 : Fin 1) q k) (ix3 ⟨l, hl⟩ ⟨s + q.val, hq⟩ k) (fun a => match a with
      | ⟨0, _⟩ => by show l = l + 0; omega
      | ⟨1, _⟩ => by show s + q.val = s + q.val; rfl
      | ⟨2, _⟩ => by show k.val = 0 + k.val; omega)

/-- Row `s` of layer `l` of a stacked `[L, A, C]` array as a one-row matrix `[1, C]`. -/
theorem stacked_row {L A C : Nat} (x : (⟨3, ![L, A, C]⟩ : Shape).Idx → α) (l s : Nat)
    (h : (⟨3, ![L, A, C]⟩ : Shape).Slices ![l, s, 0] ⟨3, ![1, 1, C]⟩)
    (h' : (⟨3, ![1, 1, C]⟩ : Shape).ShapeCasts ⟨2, ![1, C]⟩)
    (k : Fin C) (hl : l < L) (hs : s < A) :
    shapeCast (⟨2, ![1, C]⟩ : Shape) (extractStridedSlice (⟨3, ![1, 1, C]⟩ : Shape) ![l, s, 0] x h) h' (ix2 (0 : Fin 1) k)
      = x (ix3 ⟨l, hl⟩ ⟨s, hs⟩ k) := by
  refine (shapeCast_apply _ h' (ix2 (0 : Fin 1) k) (ix3 (0 : Fin 1) (0 : Fin 1) k) ?_).trans ?_
  · rw [Shape.rowMajor_val_three, Shape.rowMajor_val_two]
    show (0 * 1 + 0) * C + k.val = 0 * C + k.val
    omega
  · exact extractStridedSlice_apply _ x h (ix3 (0 : Fin 1) (0 : Fin 1) k) (ix3 ⟨l, hl⟩ ⟨s, hs⟩ k) (fun a => match a with
      | ⟨0, _⟩ => by show l = l + 0; omega
      | ⟨1, _⟩ => by show s = s + 0; omega
      | ⟨2, _⟩ => by show k.val = 0 + k.val; omega)

/-- Layer `l` of a stacked `[L, C]` array of vectors, as a vector `[C]`. -/
theorem stacked_vec {L C : Nat} (x : (⟨2, ![L, C]⟩ : Shape).Idx → α) (l : Nat)
    (h : (⟨2, ![L, C]⟩ : Shape).Slices ![l, 0] ⟨2, ![1, C]⟩)
    (h' : (⟨2, ![1, C]⟩ : Shape).ShapeCasts ⟨1, ![C]⟩)
    (k : Fin C) (hl : l < L) :
    shapeCast (⟨1, ![C]⟩ : Shape) (extractStridedSlice (⟨2, ![1, C]⟩ : Shape) ![l, 0] x h) h' (ix1 k)
      = x (ix2 ⟨l, hl⟩ k) := by
  refine (shapeCast_apply _ h' (ix1 k) (ix2 (0 : Fin 1) k) ?_).trans ?_
  · rw [Shape.rowMajor_val_two, Shape.rowMajor_val_one]
    show 0 * C + k.val = k.val
    omega
  · exact extractStridedSlice_apply _ x h (ix2 (0 : Fin 1) k) (ix2 ⟨l, hl⟩ k) (fun a => match a with
      | ⟨0, _⟩ => by show l = l + 0; omega
      | ⟨1, _⟩ => by show k.val = 0 + k.val; omega)

/-- A vector reshaped to a one-row matrix: entry `(0, k)` is the vector's entry `k`. -/
theorem vec_as_row {C : Nat} (y : (⟨1, ![C]⟩ : Shape).Idx → α) (h : (⟨1, ![C]⟩ : Shape).ShapeCasts ⟨2, ![1, C]⟩) (k : Fin C) :
    shapeCast (⟨2, ![1, C]⟩ : Shape) y h (ix2 (0 : Fin 1) k) = y (ix1 k) := by
  refine shapeCast_apply _ h (ix2 (0 : Fin 1) k) (ix1 k) ?_
  rw [Shape.rowMajor_val_two, Shape.rowMajor_val_one]
  show k.val = 0 * C + k.val
  omega

end Cert.Layout

end
-- ==== Proof.RefNet.lean ====
/-
  The reference's result is the whole network.

  The reference's stages are, operation for operation, the shared host functions: its aggregation over the edges is the
  shared aggregation at the shared edge lists and edge weights (the two programs name the same shapes and the same
  dimension numbers, so the two terms are one term), and a parameter vector broadcast to a one-row matrix is the same
  vector reshaped to a one-row matrix (entry (0, q) of either is the vector's entry q).  Putting the stages together,
  the reference's result is the network function of its eighteen arguments.
-/
import proofs.«114808_j31499290149338_1_alg».proof.Proof.RefStages
import proofs.«114808_j31499290149338_1_alg».proof.Proof.Agg
import proofs.«114808_j31499290149338_1_alg».proof.Proof.LibStackedRow

noncomputable section

namespace Cert.ReferenceIdeal.Net

open Cert.ReferenceIdeal Idealize.ShloMosaic Idealize.ShloMosaic.TcCoe Idealize.SL.Sem Idealize.ShloMosaic.StableHlo
open Idealize.ShloMosaic.ValueIdx

set_option maxRecDepth 16384 in
/-- The reference's aggregation is the shared one, at the shared edge lists and edge weights: the same operations with
    the same dimension numbers over the same shapes. -/
theorem aggR_eq (e : (⟨S2x1600000, .i32⟩ : BufTy).Contents (Elt Ideal)) (hw : FVec Ideal S100000x128 .f32) :
    Cert.ReferenceIdeal.Stages.aggR e hw = Cert.Gcn.aggr (Cert.Gcn.src e) (Cert.Gcn.dst e) (Cert.Gcn.norm e) hw := by
  unfold Cert.ReferenceIdeal.Stages.aggR Cert.Gcn.aggr Cert.Gcn.src Cert.Gcn.dst Cert.Gcn.norm Cert.Gcn.dinv Cert.Gcn.wrap
  rfl

/-- A parameter vector broadcast to a one-row matrix is the vector reshaped to a one-row matrix: entry (0, q) of
    either is the vector's entry q. -/
theorem row_eq (y : FVec Ideal S128 .f32) :
    Cert.ReferenceIdeal.Stages.row y
      = shapeCast Cert.KernelIdeal.S1x128 y Cert.KernelIdeal.Facts₀.shapeCasts_S128_S1x128 := by
  funext i
  obtain ⟨r, q, rfl⟩ : ∃ (r : Fin 1) (q : Fin 128), i = ix2 r q := ⟨i 0, i 1, eq_ix2 i⟩
  obtain rfl : r = 0 := Subsingleton.elim _ _
  rw [Cert.ReferenceIdeal.Stages.row_apply]
  exact (Cert.Layout.vec_as_row y _ q).symm

/-- The same for a vector of length one and the one-by-one matrix. -/
theorem one_eq (y : FVec Ideal S1 .f32) :
    broadcastInDim S1x1 ![1] Cert.ReferenceIdeal.Gen.bcast_S1_S1x1_1 y
      = shapeCast Cert.KernelIdeal.S1x1 y Cert.KernelIdeal.Facts₀.shapeCasts_S1_S1x1 := by
  funext i
  obtain ⟨r, q, rfl⟩ : ∃ (r : Fin 1) (q : Fin 1), i = ix2 r q := ⟨i 0, i 1, eq_ix2 i⟩
  obtain rfl : r = 0 := Subsingleton.elim _ _
  obtain rfl : q = 0 := Subsingleton.elim _ _
  refine (broadcastInDim_apply _ Cert.ReferenceIdeal.Gen.bcast_S1_S1x1_1 y (ix2 0 0) (ix1 0) (fun a => match a with
    | ⟨0, _⟩ => by show 0 = if (1 : Nat) = 1 then 0 else (0 : Fin 1).val; rw [if_pos rfl])).trans ?_
  exact (Cert.Layout.vec_as_row y _ 0).symm

/-- A parameter vector as the one-row matrix the shared functions take. -/
abbrev sc (y : FVec Ideal S128 .f32) : FVec Ideal Cert.KernelIdeal.S1x128 .f32 :=
  shapeCast Cert.KernelIdeal.S1x128 y Cert.KernelIdeal.Facts₀.shapeCasts_S128_S1x128
/-- The last bias as the one-by-one matrix the shared functions take. -/
abbrev sc1 (y : FVec Ideal S1 .f32) : FVec Ideal Cert.KernelIdeal.S1x1 .f32 :=
  shapeCast Cert.KernelIdeal.S1x1 y Cert.KernelIdeal.Facts₀.shapeCasts_S1_S1x1

/-- The reference's stages, composed, are the network. -/
theorem stages_eq (e : (⟨S2x1600000, .i32⟩ : BufTy).Contents (Elt Ideal)) (x : FVec Ideal S100000x128 .f32)
    (w1 : FVec Ideal S128x128 .f32) (b1 g1 be1 mu1 v1 : FVec Ideal S128 .f32)
    (w2 : FVec Ideal S128x128 .f32) (b2 g2 be2 mu2 v2 : FVec Ideal S128 .f32)
    (cw1 : FVec Ideal S128x128 .f32) (c1 : FVec Ideal S128 .f32) (cw2 : FVec Ideal S128x1 .f32) (c2 : FVec Ideal S1 .f32) :
    Cert.ReferenceIdeal.Stages.headR (Cert.ReferenceIdeal.Stages.bnR (Cert.ReferenceIdeal.Stages.aggR e
        (Cert.ReferenceIdeal.Stages.linR (Cert.ReferenceIdeal.Stages.bnR (Cert.ReferenceIdeal.Stages.aggR e
          (Cert.ReferenceIdeal.Stages.linR x w1)) b1 g1 be1 mu1 v1) w2)) b2 g2 be2 mu2 v2) cw1 c1 cw2 c2
      = Cert.Gcn.net e x w1 (sc b1) (sc g1) (sc be1) (sc mu1) (sc v1) w2 (sc b2) (sc g2) (sc be2) (sc mu2) (sc v2)
          cw1 (sc c1) cw2 (sc1 c2) := by
  unfold Cert.Gcn.net Cert.Gcn.layer
  rw [Cert.ReferenceIdeal.Stages.headR_eq, Cert.ReferenceIdeal.Stages.bnR_eq, Cert.ReferenceIdeal.Stages.bnR_eq,
    Cert.ReferenceIdeal.Stages.linR_eq, Cert.ReferenceIdeal.Stages.linR_eq, aggR_eq, aggR_eq,
    row_eq b1, row_eq g1, row_eq be1, row_eq mu1, row_eq v1, row_eq b2, row_eq g2, row_eq be2, row_eq mu2, row_eq v2,
    row_eq c1, one_eq c2]

/-- The reference's result is the network function of its eighteen arguments, the parameter vectors reshaped to
    one-row matrices. -/
theorem res_net (m : (ℓ : Loc nD τ sig) → Buf (Elt Ideal) ℓ) (c : Dev nD) :
    Cert.ReferenceIdeal.Value.res_main_v102 (F := Ideal) m c
      = Cert.Gcn.net (m ((c.tc : Thread nD τ).loc main_arg1)) (m ((c.tc : Thread nD τ).loc main_arg0)) (m ((c.tc : Thread nD τ).loc main_arg2))
          (sc (m ((c.tc : Thread nD τ).loc main_arg3))) (sc (m ((c.tc : Thread nD τ).loc main_arg4))) (sc (m ((c.tc : Thread nD τ).loc main_arg5)))
          (sc (m ((c.tc : Thread nD τ).loc main_arg6))) (sc (m ((c.tc : Thread nD τ).loc main_arg7)))
          (m ((c.tc : Thread nD τ).loc main_arg8))
          (sc (m ((c.tc : Thread nD τ).loc main_arg9))) (sc (m ((c.tc : Thread nD τ).loc main_arg10))) (sc (m ((c.tc : Thread nD τ).loc main_arg11)))
          (sc (m ((c.tc : Thread nD τ).loc main_arg12))) (sc (m ((c.tc : Thread nD τ).loc main_arg13)))
          (m ((c.tc : Thread nD τ).loc main_arg14)) (sc (m ((c.tc : Thread nD τ).loc main_arg15))) (m ((c.tc : Thread nD τ).loc main_arg16))
          (sc1 (m ((c.tc : Thread nD τ).loc main_arg17))) :=
  (Cert.ReferenceIdeal.Stages.res_eq m c).trans (stages_eq _ _ _ _ _ _ _ _ _ _ _ _ _ _ _ _ _ _)

end Cert.ReferenceIdeal.Net

end
-- ==== Proof.lean ====
/-
  Two programs compute a two-layer graph convolution network with a classifier head over 100000 nodes of 128
  features: per layer a dense product, a normalised sum over each node's incoming edges (self loops added; the
  weight of an edge is rsqrt (max (deg, 1)) at its source times the same at its destination), a bias, a
  normalisation by fixed statistics and a positive part; then relu (h · cW1 + cb1) · cW2 + cb2.

  The kernel program runs the three dense stages and the two normalisations as tiled kernels (fifty tiles of 2000
  rows each) and the edge sums on the host; the reference runs everything on the host.  On the extended reals a
  change of float format is the identity, a tiled product into a zero accumulator is the plain sum over the shared
  axis, and a row tile of a row-wise function is that function's rows: so each tiled stage leaves in its output
  array the same whole-array function the reference's host operations compute (`Gcn.lin`, `Gcn.bn`, `Gcn.head`),
  the host stretches of the two programs are the same operations, and both results are `Gcn.net` of the arguments.
  No algebraic law beyond that is used, and the precondition is never opened: the two sides are the same sums in
  the same order.

  The three frame claims are the generated frame runs (the reference's is its generated run with the result
  dropped); nothing was rewritten by the idealization, so `preserves` is trivial.
-/
import proofs.«114808_j31499290149338_1_alg».proof.Defs
import proofs.«114808_j31499290149338_1_alg».proof.Proof.Gen.Kernel
import proofs.«114808_j31499290149338_1_alg».proof.Proof.Gen.Kernel.Frame
import proofs.«114808_j31499290149338_1_alg».proof.Proof.Gen.KernelIdeal
import proofs.«114808_j31499290149338_1_alg».proof.Proof.Gen.KernelIdeal.Frame
import proofs.«114808_j31499290149338_1_alg».proof.Proof.Gen.ReferenceIdeal
import proofs.«114808_j31499290149338_1_alg».proof.Proof.Gen.ReferenceIdeal.Run
import proofs.«114808_j31499290149338_1_alg».proof.Proof.Gen.Pre_finite_inputs
import proofs.«114808_j31499290149338_1_alg».proof.Proof.KRun
import proofs.«114808_j31499290149338_1_alg».proof.Proof.KWalk
import proofs.«114808_j31499290149338_1_alg».proof.Proof.RegionLin0
import proofs.«114808_j31499290149338_1_alg».proof.Proof.RegionBn1
import proofs.«114808_j31499290149338_1_alg».proof.Proof.RegionLin2
import proofs.«114808_j31499290149338_1_alg».proof.Proof.RegionBn3
import proofs.«114808_j31499290149338_1_alg».proof.Proof.RegionHead4
import proofs.«114808_j31499290149338_1_alg».proof.Proof.RefNet
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the whole network of the arguments. -/
theorem algebraic : Cert.algebraic_KernelIdeal_ReferenceIdeal := by
  intro m ρ m' ρ' _ hagree
  refine ⟨fun c => Cert.Gcn.net (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (shapeCast Cert.KernelIdeal.S1x128 (m ((c.tc : Thread Cert.KernelIdeal.nD Cert.KernelIdeal.τ).loc Cert.KernelIdeal.main_arg3)) Cert.KernelIdeal.Facts₀.shapeCasts_S128_S1x128) (shapeCast Cert.KernelIdeal.S1x128 (m ((c.tc : Thread Cert.KernelIdeal.nD Cert.KernelIdeal.τ).loc Cert.KernelIdeal.main_arg4)) Cert.KernelIdeal.Facts₀.shapeCasts_S128_S1x128) (shapeCast Cert.KernelIdeal.S1x128 (m ((c.tc : Thread Cert.KernelIdeal.nD Cert.KernelIdeal.τ).loc Cert.KernelIdeal.main_arg5)) Cert.KernelIdeal.Facts₀.shapeCasts_S128_S1x128) (shapeCast Cert.KernelIdeal.S1x128 (m ((c.tc : Thread Cert.KernelIdeal.nD Cert.KernelIdeal.τ).loc Cert.KernelIdeal.main_arg6)) Cert.KernelIdeal.Facts₀.shapeCasts_S128_S1x128) (shapeCast Cert.KernelIdeal.S1x128 (m ((c.tc : Thread Cert.KernelIdeal.nD Cert.KernelIdeal.τ).loc Cert.KernelIdeal.main_arg7)) Cert.KernelIdeal.Facts₀.shapeCasts_S128_S1x128) (m ((c.tc : Thread Cert.KernelIdeal.nD Cert.KernelIdeal.τ).loc Cert.KernelIdeal.main_arg8)) (shapeCast Cert.KernelIdeal.S1x128 (m ((c.tc : Thread Cert.KernelIdeal.nD Cert.KernelIdeal.τ).loc Cert.KernelIdeal.main_arg9)) Cert.KernelIdeal.Facts₀.shapeCasts_S128_S1x128) (shapeCast Cert.KernelIdeal.S1x128 (m ((c.tc : Thread Cert.KernelIdeal.nD Cert.KernelIdeal.τ).loc Cert.KernelIdeal.main_arg10)) Cert.KernelIdeal.Facts₀.shapeCasts_S128_S1x128) (shapeCast Cert.KernelIdeal.S1x128 (m ((c.tc : Thread Cert.KernelIdeal.nD Cert.KernelIdeal.τ).loc Cert.KernelIdeal.main_arg11)) Cert.KernelIdeal.Facts₀.shapeCasts_S128_S1x128) (shapeCast Cert.KernelIdeal.S1x128 (m ((c.tc : Thread Cert.KernelIdeal.nD Cert.KernelIdeal.τ).loc Cert.KernelIdeal.main_arg12)) Cert.KernelIdeal.Facts₀.shapeCasts_S128_S1x128) (shapeCast Cert.KernelIdeal.S1x128 (m ((c.tc : Thread Cert.KernelIdeal.nD Cert.KernelIdeal.τ).loc Cert.KernelIdeal.main_arg13)) Cert.KernelIdeal.Facts₀.shapeCasts_S128_S1x128) (m ((c.tc : Thread Cert.KernelIdeal.nD Cert.KernelIdeal.τ).loc Cert.KernelIdeal.main_arg14)) (shapeCast Cert.KernelIdeal.S1x128 (m ((c.tc : Thread Cert.KernelIdeal.nD Cert.KernelIdeal.τ).loc Cert.KernelIdeal.main_arg15)) Cert.KernelIdeal.Facts₀.shapeCasts_S128_S1x128) (m ((c.tc : Thread Cert.KernelIdeal.nD Cert.KernelIdeal.τ).loc Cert.KernelIdeal.main_arg16)) (shapeCast Cert.KernelIdeal.S1x1 (m ((c.tc : Thread Cert.KernelIdeal.nD Cert.KernelIdeal.τ).loc Cert.KernelIdeal.main_arg17)) Cert.KernelIdeal.Facts₀.shapeCasts_S1_S1x1), ?_, ?_⟩
  · exact (θ_run Cert.KernelIdeal.defs _ _).mono
      (fun r h c => ⟨(h c).1.trans (Cert.KernelIdeal.Walk.result m ρ c Cert.KernelIdeal.Lin0.arr Cert.KernelIdeal.Bn1.arr
        Cert.KernelIdeal.Lin2.arr Cert.KernelIdeal.Bn3.arr Cert.KernelIdeal.Head4.arr), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12, a13, a14, a15, a16, a17⟩ := hagree c
    rw [Cert.ReferenceIdeal.Net.res_net m' c, a0, a1, a2, a3, a4, a5, a6, a7, a8, a9, a10, a11, a12, a13, a14, a15, a16, a17]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
